-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S8x6x50000x1 : S_.BroadcastsInDim S8x6x50000x1 (![] : Fin 0 → Fin S8x6x50000x1.rank)
  reducesTo_S8x6x50000x1_S_d0_1_2_3 : S8x6x50000x1.ReducesTo [0, 1, 2, 3] S_
  h_S_ : 0 < S_.numel
  bcast_S_S2x16 : S_.BroadcastsInDim S2x16 (![] : Fin 0 → Fin S2x16.rank)
  reducesTo_S2x16_S_d0_1 : S2x16.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x16 .f32) (main_arg9 : FVec F S1 .f32) (main_v33 : IVec S_ 1) : IVec S_ 1 :=
  let main_v34 : FVec F S1x16 .f32 := Host.absf main_arg8
  let main_cst_12 : FVec F S_ .f32 := constant S_ .f32 0x7F800000#32
  let main_v35 : FVec F S1x16 .f32 := broadcastInDim S1x16 ![] bcast_S_S1x16 main_cst_12
  let main_v36 : IVec S1x16 1 := cmpf .olt main_v34 main_v35
  let main_c_13 : IVec S_ 1 := constantI S_ 1 1#1
  let main_v37 : IVec S_ 1 := (fun x v => Host.reduce IntOp.andi x v reducesTo_S1x16_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S2x16 .f32) (main_arg6 : FVec F S16 .f32) (main_arg7 : FVec F S16 .f32) (main_arg8 : FVec F S1x16 .f32) (main_arg9 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S2x16 .f32 := Host.absf main_arg5
  let main_cst_6 : FVec F S_ .f32 := constant S_ .f32 0x7F800000#32
  let main_v20 : FVec F S2x16 .f32 := broadcastInDim S2x16 ![] bcast_S_S2x16 main_cst_6
  let main_v21 : IVec S2x16 1 := cmpf .olt main_v19 main_v20
  let main_c_7 : IVec S_ 1 := constantI S_ 1 1#1
  let main_v22 : IVec S_ 1 := (fun x v => Host.reduce IntOp.andi x v reducesTo_S2x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S8x6x50000x1 .f32) (main_arg1 : IVec S2x1600000 32) (main_arg2 : FVec F S2x16 .f32) (main_arg3 : FVec F S16 .f32) (main_arg4 : FVec F S16 .f32) (main_arg5 : FVec F S2x16 .f32) (main_arg6 : FVec F S16 .f32) (main_arg7 : FVec F S16 .f32) (main_arg8 : FVec F S1x16 .f32) (main_arg9 : FVec F S1 .f32) : IVec S_ 1 :=
  let main_v0 : FVec F S8x6x50000x1 .f32 := Host.absf main_arg0
  let main_cst : FVec F S_ .f32 := constant S_ .f32 0x7F800000#32
  let main_v1 : FVec F S8x6x50000x1 .f32 := broadcastInDim S8x6x50000x1 ![] bcast_S_S8x6x50000x1 main_cst
  let main_v2 : IVec S8x6x50000x1 1 := cmpf .olt main_v0 main_v1
  let main_c : IVec S_ 1 := constantI S_ 1 1#1
  let main_v3 : IVec S_ 1 := (fun x v => Host.reduce IntOp.andi x v reducesTo_S8x6x50000x1_S_d0_1_2_3 h_S_) main_v2 main_c
  let main_v4 : FVec F S2x16 .f32 := Host.absf main_arg2
  let main_cst_0 : FVec F S_ .f32 := constant S_ .f32 0x7F800000#32
  let main_v5 : FVec F S2x16 .f32 := broadcastInDim S2x16 ![] bcast_S_S2x16 main_cst_0
  let main_v6 : IVec S2x16 1 := cmpf .olt main_v4 main_v5
  let main_c_1 : IVec S_ 1 := constantI S_ 1 1#1
  let main_v7 : IVec S_ 1 := (fun x v => Host.reduce IntOp.andi x v reducesTo_S2x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_v13 main_v16
-- ==== Kernel.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S8x1x50000x1 : Shape := ⟨4, ![8, 1, 50000, 1]⟩
abbrev S8x50000 : Shape := ⟨2, ![8, 50000]⟩
abbrev S8x1600000 : Shape := ⟨2, ![8, 1600000]⟩
abbrev S8x57344 : Shape := ⟨2, ![8, 57344]⟩
abbrev S2x8x16 : Shape := ⟨3, ![2, 8, 16]⟩
abbrev S8x4096 : Shape := ⟨2, ![8, 4096]⟩
abbrev S1x8x16 : Shape := ⟨3, ![1, 8, 16]⟩
abbrev S8x16 : Shape := ⟨2, ![8, 16]⟩
abbrev S8x1x4096 : Shape := ⟨3, ![8, 1, 4096]⟩
abbrev S1x16x1 : Shape := ⟨3, ![1, 16, 1]⟩
abbrev S8x16x4096 : Shape := ⟨3, ![8, 16, 4096]⟩
abbrev S1x1x4096 : Shape := ⟨3, ![1, 1, 4096]⟩
abbrev S16x1 : Shape := ⟨2, ![16, 1]⟩
abbrev S8x1 : Shape := ⟨2, ![8, 1]⟩
abbrev S1x1 : Shape := ⟨2, ![1, 1]⟩

abbrev nBuf : Space → Nat
  | .hbm => 106
  | .vmem => 13
  | .smem => 0
  | _ => 0

abbrev bufTy : (tb : Table) → Fin (tcTables nBuf tb) → BufTy
  | .hbm, ⟨0, _⟩ => ⟨S8x6x50000x1, .f32⟩
  | .hbm, ⟨1, _⟩ => ⟨S2x1600000, .i32⟩
  | .hbm, ⟨2, _⟩ => ⟨S2x16, .f32⟩
  | .hbm, ⟨3, _⟩ => ⟨S16, .f32⟩
  | .hbm, ⟨4, _⟩ => ⟨S16, .f32⟩
  | .hbm, ⟨5, _⟩ => ⟨S2x16, .f32⟩
  | .hbm, ⟨6, _⟩ => ⟨S16, .f32⟩
  | .hbm, ⟨7, _⟩ => ⟨S16, .f32⟩
  | .hbm, ⟨8, _⟩ => ⟨S1x16, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S_, .f32⟩
  | .hbm, ⟨25, _⟩ => ⟨S1600000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000, .f32⟩
  | .hbm, ⟨60, _⟩ => ⟨S1600000, .f32⟩
  | .hbm, ⟨61, _⟩ => ⟨S8x1x50000x1, .f32⟩
  | .hbm, ⟨62, _⟩ => ⟨S8x50000, .f32⟩
  | .hbm, ⟨63, _⟩ => ⟨S_, .f32⟩
  | .hbm, ⟨64, _⟩ => ⟨S8x50000, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S8x1600000, .f32⟩
  | .hbm, ⟨74, _⟩ => ⟨S1x1600000, .f32⟩
  | .hbm, ⟨75, _⟩ => ⟨S8x1600000, .f32⟩
  | .hbm, ⟨76, _⟩ => ⟨S8x1600000, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S8x50000, .f32⟩
  | .hbm, ⟨86, _⟩ => ⟨S_, .i32⟩
  | .hbm, ⟨87, _⟩ => ⟨S_, .f32⟩
  | .hbm, ⟨88, _⟩ => ⟨S8x57344, .f32⟩
  | .hbm, ⟨89, _⟩ => ⟨S_, .i32⟩
  | .hbm, ⟨90, _⟩ => ⟨S_, .f32⟩
  | .hbm, ⟨91, _⟩ => ⟨S8x57344, .f32⟩
  | .hbm, ⟨92, _⟩ => ⟨S2x8x16, .f32⟩
  | .hbm, ⟨93, _⟩ => ⟨S_, .f32⟩
  | .hbm, ⟨94, _⟩ => ⟨S8x16, .f32⟩
  | .hbm, ⟨95, _⟩ => ⟨S_, .f32⟩
  | .hbm, ⟨96, _⟩ => ⟨S8x16, .f32⟩
  | .hbm, ⟨97, _⟩ => ⟨S8x16, .f32⟩
  | .hbm, ⟨98, _⟩ => ⟨S_, .f32⟩
  | .hbm, ⟨99, _⟩ => ⟨S8x16, .f32⟩
  | .hbm, ⟨100, _⟩ => ⟨S8x16, .f32⟩
  | .hbm, ⟨101, _⟩ => ⟨S16x1, .f32⟩
  | .hbm, ⟨102, _⟩ => ⟨S8x1, .f32⟩
  | .hbm, ⟨103, _⟩ => ⟨S1x1, .f32⟩
  | .hbm, ⟨104, _⟩ => ⟨S8x1, .f32⟩
  | .hbm, ⟨105, _⟩ => ⟨S8x1, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S2x16, .f32⟩
  | .local _ .vmem, ⟨5, _⟩ => ⟨S16, .f32⟩
  | .local _ .vmem, ⟨6, _⟩ => ⟨S16, .f32⟩
  | .local _ .vmem, ⟨7, _⟩ => ⟨S2x16, .f32⟩
  | .local _ .vmem, ⟨8, _⟩ => ⟨S16, .f32⟩
  | .local _ .vmem, ⟨9, _⟩ => ⟨S16, .f32⟩
  | .local _ .vmem, ⟨10, _⟩ => ⟨S1x8x16, .f32⟩
  | .local _ .vmem, ⟨11, _⟩ => ⟨S1x8x16, .f32⟩
  | .local _ .vmem, ⟨12, _⟩ => ⟨S8x16, .f32⟩
  | _, _ => ⟨S8x6x50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call0_v0 : Ref sig .tc := ⟨.hbm, 38, rfl⟩
abbrev main_call0_v1 : Ref sig .tc := ⟨.hbm, 39, rfl⟩
abbrev main_v20 : Ref sig .tc := ⟨.hbm, 40, rfl⟩
abbrev main_c_6 : Ref sig .tc := ⟨.hbm, 41, rfl⟩
abbrev main_v21 : Ref sig .tc := ⟨.hbm, 42, rfl⟩
abbrev main_v22 : Ref sig .tc := ⟨.hbm, 43, rfl⟩
abbrev main_c_7 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_8 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_10 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_c_12 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_13 : Ref sig .tc := ⟨.hbm, 77, rfl⟩
abbrev main_v50 : Ref sig .tc := ⟨.hbm, 78, rfl⟩
abbrev main_v51 : Ref sig .tc := ⟨.hbm, 79, rfl⟩
abbrev main_c_14 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_15 : Ref sig .tc := ⟨.hbm, 86, rfl⟩
abbrev main_call1_v0 : Ref sig .tc := ⟨.hbm, 87, rfl⟩
abbrev main_v57 : Ref sig .tc := ⟨.hbm, 88, rfl⟩
abbrev main_c_16 : Ref sig .tc := ⟨.hbm, 89, rfl⟩
abbrev main_call2_v0 : Ref sig .tc := ⟨.hbm, 90, rfl⟩
abbrev main_v58 : Ref sig .tc := ⟨.hbm, 91, rfl⟩
abbrev main_v59 : Ref sig .tc := ⟨.hbm, 92, rfl⟩
abbrev main_cst_17 : Ref sig .tc := ⟨.hbm, 93, rfl⟩
abbrev main_v60 : Ref sig .tc := ⟨.hbm, 94, rfl⟩
abbrev main_cst_18 : Ref sig .tc := ⟨.hbm, 95, rfl⟩
abbrev main_v61 : Ref sig .tc := ⟨.hbm, 96, rfl⟩
abbrev main_v62 : Ref sig .tc := ⟨.hbm, 97, rfl⟩
abbrev main_call3_cst : Ref sig .tc := ⟨.hbm, 98, rfl⟩
abbrev main_call3_v0 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 7], ![false, false]⟩

def k0_cond2 (i : grid0.Coords) : BitVec 1 :=
  let arg1 : BitVec 32 := BitVec.ofNat 32 (i 1).val
  let c6_i32 : BitVec 32 := 6#32
  let v72 : BitVec 1 := Scalar.cmpi .eq arg1 c6_i32
  let v73 : BitVec 32 := Scalar.extui v72
  let c0_i32_17 : BitVec 32 := 0#32
  let v74 : BitVec 1 := Scalar.cmpi .ne v73 c0_i32_17
  v74

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x16 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S8x6x50000x1_S8x1x50000x1_0_5_0_0 : S8x6x50000x1.Slices ![0, 5, 0, 0] S8x1x50000x1
  shapeCasts_S8x1x50000x1_S8x50000 : S8x1x50000x1.ShapeCasts S8x50000
  bcast_S_S8x50000 : S_.BroadcastsInDim S8x50000 (![] : Fin 0 → Fin S8x50000.rank)
  bcast_S1600000_S1x1600000_1 : S1600000.BroadcastsInDim S1x1600000 (![1] : Fin 1 → Fin S1x1600000.rank)
  bcast_S1x1600000_S8x1600000_0_1 : S1x1600000.BroadcastsInDim S8x1600000 (![0, 1] : Fin 2 → Fin S8x1600000.rank)
  pads_S8x50000_S8x57344_000_073440 : S8x50000.Pads (![0, 0] : Fin 2 → Nat) ![0, 7344] ![0, 0] S8x57344
  h_S_ : 0 < S_.numel
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S2x16_S2x16_0_0 : ∀ a, (![0, 0] : Fin 2 → Nat) a + S2x16.size a ≤ S2x16.size a
  h_S2x16 : 0 < S2x16.numel
  inb_S16_S16_0 : ∀ a, (![0] : Fin 1 → Nat) a + S16.size a ≤ S16.size a
  h_S16 : 0 < S16.numel
  shapeCasts_S8x4096_S8x1x4096 : S8x4096.ShapeCasts S8x1x4096
  slices_S2x16_o0_0_S1x16 : S2x16.Slices ![0, 0] S1x16
  shapeCasts_S1x16_S16 : S1x16.ShapeCasts S16
  shapeCasts_S16_S1x16x1 : S16.ShapeCasts S1x16x1
  slices_S2x16_o1_0_S1x16 : S2x16.Slices ![1, 0] S1x16
  broadcasts_S8x1x4096_S8x16x4096 : S8x1x4096.Broadcasts S8x16x4096
  broadcasts_S1x16x1_S8x16x4096 : S1x16x1.Broadcasts S8x16x4096
  iota_S1x1x4096_d2_w32 : S1x1x4096.Iotas .tc 32 [2]
  natLt_1_32 : 1 < 32
  broadcasts_S1x1x4096_S8x16x4096 : S1x1x4096.Broadcasts S8x16x4096
  reduces_S8x16x4096_S8x16 : S8x16x4096.Reduces [2] S8x16
  inb_S1x8x16_S1x8x16_0_0_0 : ∀ a, (![0, 0, 0] : Fin 3 → Nat) a + S1x8x16.size a ≤ S1x8x16.size a
  h_S1x8x16 : 0 < S1x8x16.numel
  shapeCasts_S1x8x16_S8x16 : S1x8x16.ShapeCasts S8x16
  shapeCasts_S8x16_S1x8x16 : S8x16.ShapeCasts S1x8x16
  reducesTo_S2x8x16_S8x16_d0 : S2x8x16.ReducesTo [0] S8x16
  bcast_S_S8x16 : S_.BroadcastsInDim S8x16 (![] : Fin 0 → Fin S8x16.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S8x50000_S1600000x1_S8x1600000_0_1_n_n_1_1_81_wf : GatherDims.WF S8x50000 S1600000x1 S8x1600000 [0] [1] [] [1] [] 1 ![8, 1]
  scatter_S8x50000_S1600000x1_S8x1600000_0_1_1_1_wf : ScatterDims.WF S8x50000 S1600000x1 S8x1600000 [0] [1] [1] 1
  dot_S8x16_S16x1_S8x1_1_0_0_1_n_n_wf : DotDims.WF S8x16 S16x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x57344.size a
  hwx0_0 : ∀ i : grid0.Coords, EltTy.bits .f32 = 32 ∨ (Rect.block (s := S8x57344) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x57344.size a
  hwx0_1 : ∀ i : grid0.Coords, EltTy.bits .f32 = 32 ∨ (Rect.block (s := S8x57344) S8x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x16.size a ≤ S2x16.size a
  hwx0_2 : ∀ i : grid0.Coords, EltTy.bits .f32 = 32 ∨ (Rect.block (s := S2x16) S2x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x16.size a ≤ S2x16.size a
  hwx0_5 : ∀ i : grid0.Coords, EltTy.bits .f32 = 32 ∨ (Rect.block (s := S2x16) S2x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16.size a ≤ S16.size a
  hwx0_7 : ∀ i : grid0.Coords, EltTy.bits .f32 = 32 ∨ (Rect.block (s := S16) S16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x16.size a ≤ S2x8x16.size a
  hwx0_8 : ∀ i : grid0.Coords, EltTy.bits .f32 = 32 ∨ (Rect.block (s := S2x8x16) S1x8x16.size (cc0_transform_8 i) (hinb0_8 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S8x50000_S1600000x1_S8x1600000_0_1_n_n_1_1_81 : GatherDims S8x50000 S1600000x1 S8x1600000 where
  offsetDims := [0]
  collapsedSliceDims := [1]
  operandBatchingDims := []
  startIndicesBatchingDims := []
  startIndexMap := [1]
  indexVectorDim := 1
  sliceSizes := ![8, 1]
  wf := gather_S8x50000_S1600000x1_S8x1600000_0_1_n_n_1_1_81_wf
def scatter_S8x50000_S1600000x1_S8x1600000_0_1_1_1 : ScatterDims S8x50000 S1600000x1 S8x1600000 where
  updateWindowDims := [0]
  insertedWindowDims := [1]
  scatterDimsToOperandDims := [1]
  indexVectorDim := 1
  wf := scatter_S8x50000_S1600000x1_S8x1600000_0_1_1_1_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

abbrev win0_0 : Pipeline.Window sig grid0 :=
  Pipeline.Window.ofSpec (Memref.whole main_v57) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v59) S1x8x16.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8x6x50000x1 : Shape := ⟨4, ![8, 6, 50000, 1]⟩
abbrev S2x1600000 : Shape := ⟨2, ![2, 1600000]⟩
abbrev S2x16 : Shape := ⟨2, ![2, 16]⟩
abbrev S16 : Shape := ⟨1, ![16]⟩
abbrev S1x16 : Shape := ⟨2, ![1, 16]⟩
abbrev S1 : Shape := ⟨1, ![1]⟩
abbrev S1x1600000 : Shape := ⟨2, ![1, 1600000]⟩
abbrev S1600000 : Shape := ⟨1, ![1600000]⟩
abbrev S8x6x50000 : Shape := ⟨3, ![8, 6, 50000]⟩
abbrev S_ : Shape := ⟨0, ![]⟩
abbrev S50000 : Shape := ⟨1, ![50000]⟩
abbrev S1600000x1 : Shape := ⟨2, ![1600000, 1]⟩
abbrev S8x6x1600000 : Shape := ⟨3, ![8, 6, 1600000]⟩
abbrev S1x1x1600000 : Shape := ⟨3, ![1, 1, 1600000]⟩
abbrev S1x1x1x16 : Shape := ⟨4, ![1, 1, 1, 16]⟩
abbrev S8x6x50000x16 : Shape := ⟨4, ![8, 6, 50000, 16]⟩
abbrev S8x6x16 : Shape := ⟨3, ![8, 6, 16]⟩
abbrev S8x1x16 : Shape := ⟨3, ![8, 1, 16]⟩
abbrev S8x16 : Shape := ⟨2, ![8, 16]⟩
abbrev S16x1 : Shape := ⟨2, ![16, 1]⟩
abbrev S8x1 : Shape := ⟨2, ![8, 1]⟩
abbrev S1x1 : Shape := ⟨2, ![1, 1]⟩

abbrev nBuf : Space → Nat
  | .hbm => 155
  | .vmem => 0
  | .smem => 0
  | _ => 0

abbrev hbmTy0_0 (i : Nat) : BufTy := match i % 128 with
  | 0 => ⟨S8x6x50000x1, .f32⟩
  | 1 => ⟨S2x1600000, .i32⟩
  | 2 => ⟨S2x16, .f32⟩
  | 3 => ⟨S16, .f32⟩
  | 4 => ⟨S16, .f32⟩
  | 5 => ⟨S2x16, .f32⟩
  | 6 => ⟨S16, .f32⟩
  | 7 => ⟨S16, .f32⟩
  | 8 => ⟨S1x16, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S8x6x50000, .f32⟩
  | 15 => ⟨S_, .f32⟩
  | 16 => ⟨S50000, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S_, .f32⟩
  | 26 => ⟨S1600000, .f32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .f32⟩
  | 39 => ⟨S_, .f32⟩
  | 40 => ⟨S50000, .f32⟩
  | 41 => ⟨S50000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000, .f32⟩
  | 61 => ⟨S1600000, .f32⟩
  | 62 => ⟨S_, .f32⟩
  | 63 => ⟨S8x6x50000, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S8x6x1600000, .f32⟩
  | 73 => ⟨S1x1x1600000, .f32⟩
  | 74 => ⟨S8x6x1600000, .f32⟩
  | 75 => ⟨S8x6x1600000, .f32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S8x6x50000, .f32⟩
  | 85 => ⟨S8x6x50000x1, .f32⟩
  | 86 => ⟨S1x16, .f32⟩
  | 87 => ⟨S16, .f32⟩
  | 88 => ⟨S1x1x1x16, .f32⟩
  | 89 => ⟨S8x6x50000x16, .f32⟩
  | 90 => ⟨S8x6x50000x16, .f32⟩
  | 91 => ⟨S8x6x50000x16, .f32⟩
  | 92 => ⟨S8x6x50000x1, .f32⟩
  | 93 => ⟨S1x16, .f32⟩
  | 94 => ⟨S16, .f32⟩
  | 95 => ⟨S1x1x1x16, .f32⟩
  | 96 => ⟨S8x6x50000x16, .f32⟩
  | 97 => ⟨S8x6x50000x16, .f32⟩
  | 98 => ⟨S8x6x50000x16, .f32⟩
  | 99 => ⟨S8x6x50000x16, .f32⟩
  | 100 => ⟨S1x1x1x16, .f32⟩
  | 101 => ⟨S8x6x50000x16, .f32⟩
  | 102 => ⟨S8x6x50000x16, .f32⟩
  | 103 => ⟨S1x1x1x16, .f32⟩
  | 104 => ⟨S8x6x50000x16, .f32⟩
  | 105 => ⟨S8x6x50000x16, .f32⟩
  | 106 => ⟨S8x6x50000x16, .f32⟩
  | 107 => ⟨S8x6x50000x16, .f32⟩
  | 108 => ⟨S_, .f32⟩
  | 109 => ⟨S8x6x50000x16, .f32⟩
  | 110 => ⟨S8x6x50000x16, .f32⟩
  | 111 => ⟨S_, .f32⟩
  | 112 => ⟨S8x6x50000x16, .f32⟩
  | 113 => ⟨S8x6x50000x16, .f32⟩
  | 114 => ⟨S8x6x50000x1, .f32⟩
  | 115 => ⟨S1x16, .f32⟩
  | 116 => ⟨S16, .f32⟩
  | 117 => ⟨S1x1x1x16, .f32⟩
  | 118 => ⟨S8x6x50000x16, .f32⟩
  | 119 => ⟨S8x6x50000x16, .f32⟩
  | 120 => ⟨S8x6x50000x16, .f32⟩
  | 121 => ⟨S8x6x50000x1, .f32⟩
  | 122 => ⟨S1x16, .f32⟩
  | 123 => ⟨S16, .f32⟩
  | 124 => ⟨S1x1x1x16, .f32⟩
  | 125 => ⟨S8x6x50000x16, .f32⟩
  | 126 => ⟨S8x6x50000x16, .f32⟩
  | 127 => ⟨S8x6x50000x16, .f32⟩
  | _ => ⟨S8x6x50000x1, .f32⟩

abbrev hbmTy0_1 (i : Nat) : BufTy := match i % 128 with
  | 0 => ⟨S8x6x50000x16, .f32⟩
  | 1 => ⟨S1x1x1x16, .f32⟩
  | 2 => ⟨S8x6x50000x16, .f32⟩
  | 3 => ⟨S8x6x50000x16, .f32⟩
  | 4 => ⟨S1x1x1x16, .f32⟩
  | 5 => ⟨S8x6x50000x16, .f32⟩
  | 6 => ⟨S8x6x50000x16, .f32⟩
  | 7 => ⟨S8x6x50000x16, .f32⟩
  | 8 => ⟨S_, .f32⟩
  | 9 => ⟨S8x6x50000x16, .f32⟩
  | 10 => ⟨S8x6x50000x16, .f32⟩
  | 11 => ⟨S8x6x50000x16, .f32⟩
  | 12 => ⟨S_, .f32⟩
  | 13 => ⟨S8x6x16, .f32⟩
  | 14 => ⟨S_, .f32⟩
  | 15 => ⟨S8x6x16, .f32⟩
  | 16 => ⟨S8x6x16, .f32⟩
  | 17 => ⟨S8x1x16, .f32⟩
  | 18 => ⟨S8x16, .f32⟩
  | 19 => ⟨S_, .f32⟩
  | 20 => ⟨S8x16, .f32⟩
  | 21 => ⟨S8x16, .f32⟩
  | 22 => ⟨S16x1, .f32⟩
  | 23 => ⟨S8x1, .f32⟩
  | 24 => ⟨S1x1, .f32⟩
  | 25 => ⟨S8x1, .f32⟩
  | 26 => ⟨S8x1, .f32⟩
  | _ => ⟨S8x6x50000x1, .f32⟩

abbrev hbmTy (i : Nat) : BufTy := match i / 128 with
  | 0 => hbmTy0_0 i
  | 1 => hbmTy0_1 i
  | _ => ⟨S8x6x50000x1, .f32⟩

abbrev bufTy : (tb : Table) → Fin (tcTables nBuf tb) → BufTy
  | .hbm, ⟨i, _⟩ => hbmTy i
  | _, _ => ⟨S8x6x50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_cst_5 : Ref sig .tc := ⟨.hbm, 38, rfl⟩
abbrev main_call0_v0 : Ref sig .tc := ⟨.hbm, 39, rfl⟩
abbrev main_call0_v1 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_c_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_10 : Ref sig .tc := ⟨.hbm, 62, rfl⟩
abbrev main_v38 : Ref sig .tc := ⟨.hbm, 63, rfl⟩
abbrev main_c_11 : Ref sig .tc := ⟨.hbm, 64, rfl⟩
abbrev main_v39 : Ref sig .tc := ⟨.hbm, 65, rfl⟩
abbrev main_v40 : Ref sig .tc := ⟨.hbm, 66, rfl⟩
abbrev main_c_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_c_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_17 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_18 : Ref sig .tc := ⟨.hbm, 140, rfl⟩
abbrev main_v108 : Ref sig .tc := ⟨.hbm, 141, rfl⟩
abbrev main_cst_19 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_call1_cst : Ref sig .tc := ⟨.hbm, 147, rfl⟩
abbrev main_call1_v0 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S8x6x50000x1_S8x6x50000 : S8x6x50000x1.ShapeCasts S8x6x50000
  bcast_S_S50000 : S_.BroadcastsInDim S50000 (![] : Fin 0 → Fin S50000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S8x6x50000 : S_.BroadcastsInDim S8x6x50000 (![] : Fin 0 → Fin S8x6x50000.rank)
  bcast_S1600000_S1x1x1600000_2 : S1600000.BroadcastsInDim S1x1x1600000 (![2] : Fin 1 → Fin S1x1x1600000.rank)
  bcast_S1x1x1600000_S8x6x1600000_0_1_2 : S1x1x1600000.BroadcastsInDim S8x6x1600000 (![0, 1, 2] : Fin 3 → Fin S8x6x1600000.rank)
  bcast_S8x6x50000_S8x6x50000x1_0_1_2 : S8x6x50000.BroadcastsInDim S8x6x50000x1 (![0, 1, 2] : Fin 3 → Fin S8x6x50000x1.rank)
  slices_S2x16_S1x16_0_0 : S2x16.Slices ![0, 0] S1x16
  shapeCasts_S1x16_S16 : S1x16.ShapeCasts S16
  bcast_S16_S1x1x1x16_3 : S16.BroadcastsInDim S1x1x1x16 (![3] : Fin 1 → Fin S1x1x1x16.rank)
  bcast_S8x6x50000x1_S8x6x50000x16_0_1_2_3 : S8x6x50000x1.BroadcastsInDim S8x6x50000x16 (![0, 1, 2, 3] : Fin 4 → Fin S8x6x50000x16.rank)
  bcast_S1x1x1x16_S8x6x50000x16_0_1_2_3 : S1x1x1x16.BroadcastsInDim S8x6x50000x16 (![0, 1, 2, 3] : Fin 4 → Fin S8x6x50000x16.rank)
  slices_S2x16_S1x16_1_0 : S2x16.Slices ![1, 0] S1x16
  bcast_S_S8x6x50000x16 : S_.BroadcastsInDim S8x6x50000x16 (![] : Fin 0 → Fin S8x6x50000x16.rank)
  reducesTo_S8x6x50000x16_S8x6x16_d2 : S8x6x50000x16.ReducesTo [2] S8x6x16
  h_S_ : 0 < S_.numel
  bcast_S_S8x6x16 : S_.BroadcastsInDim S8x6x16 (![] : Fin 0 → Fin S8x6x16.rank)
  slices_S8x6x16_S8x1x16_0_5_0 : S8x6x16.Slices ![0, 5, 0] S8x1x16
  shapeCasts_S8x1x16_S8x16 : S8x1x16.ShapeCasts S8x16
  bcast_S_S8x16 : S_.BroadcastsInDim S8x16 (![] : Fin 0 → Fin S8x16.rank)
  transposes_S1x16_S16x1_1_0 : S1x16.Transposes [1, 0] S16x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S8x6x50000_S1600000x1_S8x6x1600000_01_2_n_n_2_1_861_wf : GatherDims.WF S8x6x50000 S1600000x1 S8x6x1600000 [0, 1] [2] [] [2] [] 1 ![8, 6, 1]
  scatter_S8x6x50000_S1600000x1_S8x6x1600000_01_2_2_1_wf : ScatterDims.WF S8x6x50000 S1600000x1 S8x6x1600000 [0, 1] [2] [2] 1
  dot_S8x16_S16x1_S8x1_1_0_0_1_n_n_wf : DotDims.WF S8x16 S16x1 S8x1 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S8x6x50000_S1600000x1_S8x6x1600000_01_2_n_n_2_1_861 : GatherDims S8x6x50000 S1600000x1 S8x6x1600000 where
  offsetDims := [0, 1]
  collapsedSliceDims := [2]
  operandBatchingDims := []
  startIndicesBatchingDims := []
  startIndexMap := [2]
  indexVectorDim := 1
  sliceSizes := ![8, 6, 1]
  wf := gather_S8x6x50000_S1600000x1_S8x6x1600000_01_2_n_n_2_1_861_wf
def scatter_S8x6x50000_S1600000x1_S8x6x1600000_01_2_2_1 : ScatterDims S8x6x50000 S1600000x1 S8x6x1600000 where
  updateWindowDims := [0, 1]
  insertedWindowDims := [2]
  scatterDimsToOperandDims := [2]
  indexVectorDim := 1
  wf := scatter_S8x6x50000_S1600000x1_S8x6x1600000_01_2_2_1_wf
def dot_S8x16_S16x1_S8x1_1_0_0_1_n_n : DotDims S8x16 S16x1 S8x1 where
  lhsContracting := [1]
  rhsContracting := [0]
  lhsNonContracting := [0]
  rhsNonContracting := [1]
  lhsBatch := []
  rhsBatch := []
  wf := dot_S8x16_S16x1_S8x1_1_0_0_1_n_n_wf

class Facts : Prop extends Facts₀ where

variable [Facts]
-- ==== Proof.PoolSpec.lean ====
/-
  The arithmetic the kernel and the reference share, on the extended reals.

  Per node `n` and hidden channel `h` both programs form the gated state `(1 - σ(z)) · tanh(a)` of two affine
  pre-activations of the node's feature `xv` and its Laplacian feature `lv`; the reference adds its two biases one
  after the other and spells the sigmoid `1 / (1 + e^(-z))`, the kernel adds the sum of the two biases and applies
  the logistic function. Addition on the extended reals is associative, and the logistic function is that quotient,
  so the two are one number (`gateK_eq_gateR`).

  The kernel sums the gated states over the nodes tile by tile: fourteen tiles of 4096 places, seven per core, each
  place beyond the 50000 nodes multiplied by zero, a tile's sum added to a running sum that starts at zero on each
  core, the two cores' sums added from zero. The reference adds the 50000 nodes' states from zero. Sums on the
  extended reals re-associate freely, a zero factor gives zero, so the two totals agree (`tiled_total`).
-/
import Idealize.ShloMosaic.PureOps.Ideal
import Mathlib.Algebra.BigOperators.Intervals
import Mathlib.Algebra.BigOperators.Fin

noncomputable section

namespace Cert.PoolSpec

open Idealize.ShloMosaic

/-- The float pattern of `1.0` denotes the number one. -/
theorem ofBits_one : Ideal.ofBits .f32 0x3F800000#32 = 1 := by
  simp [Ideal.ofBits, Ideal.ieee, -EReal.coe_mul]; norm_num

/-- The float pattern of `+0.0` denotes zero. -/
theorem ofBits_zero : Ideal.ofBits .f32 0x00000000#32 = 0 := by
  simp [Ideal.ofBits, Ideal.ieee]

/-- The gated state as the reference spells it: biases added one after the other, the sigmoid as a quotient. -/
def gateR (xv lv wz0 wz1 bxz bhz wh0 wh1 bxh bhh : EReal) : EReal :=
  (Ideal.ofBits .f32 0x3F800000#32
      - Ideal.div (Ideal.ofBits .f32 0x3F800000#32)
          (Ideal.ofBits .f32 0x3F800000#32 + Ideal.exp (-(xv * wz0 + lv * wz1 + bxz + bhz))))
    * Ideal.tanh (xv * wh0 + lv * wh1 + bxh + bhh)

/-- The gated state as the kernel spells it: the two biases added first, the logistic function. -/
def gateK (xv lv wz0 wz1 bxz bhz wh0 wh1 bxh bhh : EReal) : EReal :=
  (Ideal.ofBits .f32 0x3F800000#32 - Ideal.logistic (xv * wz0 + lv * wz1 + (bxz + bhz)))
    * Ideal.tanh (xv * wh0 + lv * wh1 + (bxh + bhh))

theorem gateK_eq_gateR (xv lv wz0 wz1 bxz bhz wh0 wh1 bxh bhh : EReal) :
    gateK xv lv wz0 wz1 bxz bhz wh0 wh1 bxh bhh = gateR xv lv wz0 wz1 bxz bhz wh0 wh1 bxh bhh := by
  unfold gateK gateR Ideal.logistic
  rw [ofBits_one, add_assoc (xv * wz0 + lv * wz1) bxz bhz, add_assoc (xv * wh0 + lv * wh1) bxh bhh]

/-- Tiles of `C` places laid end to end: the sum of the tiles' sums is the sum over all places. -/
theorem sum_tiles {M : Type*} [AddCommMonoid M] (C : ℕ) (F : ℕ → M) :
    ∀ T : ℕ, ∑ k ∈ Finset.range T, ∑ l ∈ Finset.range C, F (C * k + l) = ∑ j ∈ Finset.range (C * T), F j
  | 0 => by simp
  | T + 1 => by
    rw [Finset.sum_range_succ, sum_tiles C F T, Nat.mul_succ, Finset.sum_range_add]

/-- A sum whose terms vanish from place `n` on stops at `n`. -/
theorem sum_range_vanish {M : Type*} [AddCommMonoid M] (F : ℕ → M) (n N : ℕ) (hn : n ≤ N)
    (hF : ∀ j, n ≤ j → F j = 0) : ∑ j ∈ Finset.range N, F j = ∑ j ∈ Finset.range n, F j := by
  obtain ⟨d, rfl⟩ := Nat.exists_eq_add_of_le hn
  rw [Finset.sum_range_add, Finset.sum_eq_zero (s := Finset.range d) (fun j _ => hF _ (Nat.le_add_right n j)), add_zero]

/-- The kernel's total over fourteen tiles, seven to a core, each place weighted by one below 50000 and by zero from
    there on, against the plain sum of the 50000 places. `G j` is the term at place `j`; place `l` of tile `7c + k` is
    place `4096 (7c + k) + l`. -/
theorem tiled_total (G : ℕ → EReal) :
    (0 : EReal) + ∑ c ∈ Finset.range 2, ∑ k ∈ Finset.range 7, ∑ l ∈ Finset.range 4096,
        G (4096 * (7 * c + k) + l) * (if 4096 * (7 * c + k) + l < 50000 then (1 : EReal) else 0)
      = 0 + ∑ n ∈ Finset.range 50000, G n := by
  refine congrArg (fun s => (0 : EReal) + s) ?_
  have h7 := sum_tiles 7 (fun t => ∑ l ∈ Finset.range 4096,
      G (4096 * t + l) * (if 4096 * t + l < 50000 then (1 : EReal) else 0)) 2
  have h4096 := sum_tiles 4096 (fun j => G j * (if j < 50000 then (1 : EReal) else 0)) 14
  rw [h7, h4096]
  rw [sum_range_vanish (fun j => G j * (if j < 50000 then (1 : EReal) else 0)) 50000 (4096 * 14) (by norm_num)
    (fun j hj => by rw [if_neg (by omega), mul_zero])]
  exact Finset.sum_congr rfl fun j hj => by rw [if_pos (Finset.mem_range.mp hj), mul_one]

end Cert.PoolSpec

end
-- ==== Proof.KernelCell.lean ====
/-
  One grid step of the pooling kernel, read entry by entry on the extended reals.

  At a grid point the body holds a tile of 4096 places of the node features `x0` and of the Laplacian features `x1`
  (eight rows each), the two weight matrices and four bias vectors whole, and the running sum `acc` of shape [8,16].
  It forms, for row `b`, hidden channel `h` and place `l`, the gated state of `x0 (b,l)` and `x1 (b,l)`, multiplies
  it by the weight of the place (one when the place's global column lies below 50000, zero otherwise), sums over the
  4096 places of the tile and adds the sum to `acc (b,h)`.
-/
import proofs.«172272_j9809705304183_2_alg».proof.Proof.Gen.KernelIdeal.Skeleton
import proofs.«172272_j9809705304183_2_alg».proof.Proof.PoolSpec
import Idealize.ShloMosaic.Lib.Pipeline.Value
import Idealize.ShloMosaic.Lib.ValueIdx
import Idealize.ShloMosaic.PureOps.Ideal.Laws

noncomputable section

namespace Cert.KernelIdeal.Cell

open Cert.KernelIdeal Cert.KernelIdeal.Gen Idealize.ShloMosaic Idealize.ShloMosaic.ValueIdx

variable {F : FTy → Type} [FloatOps F]

/-- The running sum a grid step leaves, from the step's blocks and the running sum it found. -/
def tileStep (i : grid0.Coords) (x0 x1 : Vec F S8x4096 .f32) (x2 : Vec F S2x16 .f32) (x3 x4 : Vec F S16 .f32)
    (x5 : Vec F S2x16 .f32) (x6 x7 : Vec F S16 .f32) (acc : Vec F S8x16 .f32) : Vec F S8x16 .f32 :=
  k0_pay1 (BitVec.ofNat 32 (i 0).val) (BitVec.ofNat 32 (i 1).val) (k0_pay5 x1) (k0_pay6 x5) (k0_pay7 x6 x7)
    (k0_pay8 x0 x1 x2 x3 x4) (k0_pay9 x0 x5) acc

section Layout
variable {α : Type}

/-- A tile [8,4096] laid out [8,1,4096] and repeated over the 16 channels, at (b,h,l): the tile at (b,l). -/
theorem lanes_apply (v : S8x4096.Idx → α) (h1 : S8x4096.ShapeCasts S8x4096) (h2 : S8x4096.ShapeCasts S8x1x4096)
    (h3 : S8x1x4096.Broadcasts S8x16x4096) (b : Fin 8) (h : Fin 16) (l : Fin 4096) :
    broadcastTo S8x16x4096 (shapeCast S8x1x4096 (shapeCast S8x4096 v h1) h2) h3 (ix3 b h l) = v (ix2 b l) := by
  rw [broadcastTo_apply _ h3 (ix3 b h l) (ix3 b (0 : Fin 1) l) (fun a => by
    match a with
    | ⟨0, _⟩ => rfl
    | ⟨1, _⟩ => rfl
    | ⟨2, _⟩ => rfl)]
  rw [shapeCast_self]
  exact shapeCast_apply v h2 (ix3 b (0 : Fin 1) l) (ix2 b l) (by
    rw [Shape.rowMajor_val_two, Shape.rowMajor_val_three]
    show b.val * 4096 + l.val = (b.val * 1 + 0) * 4096 + l.val
    omega)

/-- Row `r` of a weight matrix [2,16] laid out [1,16,1] and repeated over rows and places, at (b,h,l): the weight (r,h). -/
theorem chan_row_apply (w : S2x16.Idx → α) (r : Fin 2) (off : Fin 2 → Nat) (hoff : off = ![r.val, 0])
    (h0 : S2x16.Slices off S1x16) (h1 : S1x16.ShapeCasts S16) (h2 : S16.ShapeCasts S1x16x1)
    (h3 : S1x16x1.Broadcasts S8x16x4096) (b : Fin 8) (h : Fin 16) (l : Fin 4096) :
    broadcastTo S8x16x4096 (shapeCast S1x16x1 (shapeCast S16 (extractStridedSlice S1x16 off w h0) h1) h2) h3 (ix3 b h l)
      = w (ix2 r h) := by
  subst hoff
  rw [broadcastTo_apply _ h3 (ix3 b h l) (ix3 (0 : Fin 1) h (0 : Fin 1)) (fun a => by
    match a with
    | ⟨0, _⟩ => rfl
    | ⟨1, _⟩ => rfl
    | ⟨2, _⟩ => rfl)]
  rw [shapeCast_apply _ h2 (ix3 (0 : Fin 1) h (0 : Fin 1)) (ix1 h) (by
    rw [Shape.rowMajor_val_one, Shape.rowMajor_val_three]
    show h.val = (0 * 16 + h.val) * 1 + 0
    omega)]
  rw [shapeCast_apply _ h1 (ix1 h) (ix2 (0 : Fin 1) h) (by
    rw [Shape.rowMajor_val_one, Shape.rowMajor_val_two]
    show 0 * 16 + h.val = h.val
    omega)]
  exact extractStridedSlice_apply _ w h0 (ix2 (0 : Fin 1) h) (ix2 r h) (fun a => by
    match a with
    | ⟨0, _⟩ => show r.val = r.val + 0; omega
    | ⟨1, _⟩ => show h.val = 0 + h.val; omega)

/-- A bias vector [16] laid out [1,16,1] and repeated over rows and places, at (b,h,l): the bias at h. -/
theorem chan_apply (u : S16.Idx → α) (h2 : S16.ShapeCasts S1x16x1) (h3 : S1x16x1.Broadcasts S8x16x4096)
    (b : Fin 8) (h : Fin 16) (l : Fin 4096) :
    broadcastTo S8x16x4096 (shapeCast S1x16x1 u h2) h3 (ix3 b h l) = u (ix1 h) := by
  rw [broadcastTo_apply _ h3 (ix3 b h l) (ix3 (0 : Fin 1) h (0 : Fin 1)) (fun a => by
    match a with
    | ⟨0, _⟩ => rfl
    | ⟨1, _⟩ => rfl
    | ⟨2, _⟩ => rfl)]
  exact shapeCast_apply u h2 (ix3 (0 : Fin 1) h (0 : Fin 1)) (ix1 h) (by
    rw [Shape.rowMajor_val_one, Shape.rowMajor_val_three]
    show h.val = (0 * 16 + h.val) * 1 + 0
    omega)

end Layout

/-! ## The weight of a place -/

/-- The global column of place `l` of tile `7c + n`, as the body computes it in 32-bit words, is `4096 (7c + n) + l`:
    on this grid nothing wraps around. -/
theorem place_col_toNat (c n l : ℕ) (hc : c < 2) (hn : n < 7) (hl : l < 4096) :
    (IntOp.addi (Scalar.muli (Scalar.addi (Scalar.muli (BitVec.ofNat 32 c) 7#32) (BitVec.ofNat 32 n)) 4096#32)
      (BitVec.ofNat 32 l)).toNat = 4096 * (7 * c + n) + l := by
  simp only [IntOp.addi, Scalar.muli, Scalar.addi, IntOp.muli, BitVec.toNat_add, BitVec.toNat_mul, BitVec.toNat_ofNat]
  omega

/-- The weight the body gives place `l` at the grid point of coordinates (c, n): one when the place's global column
    `4096 (7c + n) + l` lies below 50000, zero otherwise — the comparison's bit widened and read as a number. -/
theorem place_weight (c n : ℕ) (hc : c < 2) (hn : n < 7) (hio : S1x1x4096.Iotas .tc 32 [2])
    (hw : 1 < 32) (h3 : S1x1x4096.Broadcasts S8x16x4096) (b : Fin 8) (h : Fin 16) (l : Fin 4096) :
    broadcastTo S8x16x4096
        (sitofp (F := Ideal) .f32 (extui 32 (cmpi .slt
          (addi (broadcast S1x1x4096 (Scalar.muli (Scalar.addi (Scalar.muli (BitVec.ofNat 32 c) 7#32) (BitVec.ofNat 32 n)) 4096#32))
            (iota .tc S1x1x4096 32 [2] hio))
          (broadcast S1x1x4096 50000#32)) hw)) h3 (ix3 b h l)
      = if 4096 * (7 * c + n) + l.val < 50000 then (1 : EReal) else 0 := by
  rw [broadcastTo_apply _ h3 (ix3 b h l) (ix3 (0 : Fin 1) (0 : Fin 1) l) (fun a => by
    match a with
    | ⟨0, _⟩ => rfl
    | ⟨1, _⟩ => rfl
    | ⟨2, _⟩ => rfl)]
  have hiota : iota .tc S1x1x4096 32 [2] hio (ix3 (0 : Fin 1) (0 : Fin 1) l) = BitVec.ofNat 32 l.val := by
    unfold iota
    show BitVec.ofNat 32 (0 * 4096 + l.val) = _
    rw [Nat.zero_mul, Nat.zero_add]
  show Scalar.sitofp (F := Ideal) .f32 ((IntOp.cmpi .slt (IntOp.addi _ (iota .tc S1x1x4096 32 [2] hio (ix3 (0 : Fin 1) (0 : Fin 1) l))) 50000#32).setWidth 32) = _
  rw [hiota, Ideal.scalar_sitofp_def, broadcast_apply]
  have hX := place_col_toNat c n l.val hc hn l.isLt
  have hXi : (IntOp.addi (Scalar.muli (Scalar.addi (Scalar.muli (BitVec.ofNat 32 c) 7#32) (BitVec.ofNat 32 n)) 4096#32)
      (BitVec.ofNat 32 l.val)).toInt = ((4096 * (7 * c + n) + l.val : ℕ) : Int) := by
    rw [BitVec.toInt_eq_toNat_of_lt (by rw [hX]; have := l.isLt; omega), hX]
  have h5 : (50000#32 : BitVec 32).toInt = 50000 := by decide
  unfold IntOp.cmpi
  simp only []
  rw [BitVec.slt_eq_decide, hXi, h5]
  have e1 : ((1 : BitVec 1).setWidth 32).toInt = 1 := by decide
  have e0 : ((0 : BitVec 1).setWidth 32).toInt = 0 := by decide
  by_cases hlt : 4096 * (7 * c + n) + l.val < 50000
  · rw [if_pos hlt, decide_eq_true (by omega), BitVec.ofBool_true, e1]
    norm_num
  · rw [if_neg hlt, decide_eq_false (by omega), BitVec.ofBool_false, e0]
    norm_num

/-! ## The step, entry by entry -/

/-- The sum over the places of a tile [8,16,4096], at (b,h). -/
theorem laneSum_apply (src : FVec Ideal S8x16x4096 .f32) (hr : S8x16x4096.Reduces [2] S8x16) (hφ : FKind.Formats .f32)
    (hacc : (0x00000000#32 : BitVec 32) = 0x00000000#32) (b : Fin 8) (h : Fin 16) :
    multiReduction (F := Ideal) .add [2] S8x16 src 0x00000000#32 hr hφ hacc (ix2 b h) = ∑ l : Fin 4096, src (ix3 b h l) :=
  (Ideal.multiReduction_add_single src 0x00000000#32 hr hφ hacc (ix2 b h)).trans
    (Finset.sum_congr rfl fun l _ => congrArg src (funext fun a => by
      match a with
      | ⟨0, _⟩ => rfl
      | ⟨1, _⟩ => rfl
      | ⟨2, _⟩ => rfl))

/-- The update gate's pre-activation at (b,h,l). -/
theorem preZ_apply (x0 x1 : Vec Ideal S8x4096 .f32) (x2 : Vec Ideal S2x16 .f32) (x3 x4 : Vec Ideal S16 .f32)
    (b : Fin 8) (h : Fin 16) (l : Fin 4096) :
    k0_pay8 (F := Ideal) x0 x1 x2 x3 x4 (ix3 b h l)
      = x0 (ix2 b l) * x2 (ix2 0 h) + x1 (ix2 b l) * x2 (ix2 1 h) + (x3 (ix1 h) + x4 (ix1 h)) := by
  unfold k0_pay8 k0_pay4 k0_pay5
  simp only [addf_apply, mulf_apply]
  rw [lanes_apply x0, lanes_apply x1, chan_row_apply x2 0 ![0, 0] rfl, chan_row_apply x2 1 ![1, 0] rfl, chan_apply]
  rfl

/-- The first product of the candidate's pre-activation at (b,h,l). -/
theorem preH0_apply (x0 : Vec Ideal S8x4096 .f32) (x5 : Vec Ideal S2x16 .f32) (b : Fin 8) (h : Fin 16) (l : Fin 4096) :
    k0_pay9 (F := Ideal) x0 x5 (ix3 b h l) = x0 (ix2 b l) * x5 (ix2 0 h) := by
  unfold k0_pay9 k0_pay4
  simp only [mulf_apply]
  rw [lanes_apply x0, chan_row_apply x5 0 ![0, 0] rfl]

/-- A grid step at the point of coordinates `i`, at row `b` and channel `h`: the running sum found there plus the sum
    over the tile's 4096 places of the gated state times the place's weight. -/
theorem tileStep_apply (i : grid0.Coords) (x0 x1 : Vec Ideal S8x4096 .f32) (x2 : Vec Ideal S2x16 .f32)
    (x3 x4 : Vec Ideal S16 .f32) (x5 : Vec Ideal S2x16 .f32) (x6 x7 : Vec Ideal S16 .f32) (acc : Vec Ideal S8x16 .f32)
    (hi0 : (i 0).val < 2) (hi1 : (i 1).val < 7) (b : Fin 8) (h : Fin 16) :
    tileStep (F := Ideal) i x0 x1 x2 x3 x4 x5 x6 x7 acc (ix2 b h)
      = acc (ix2 b h) + ∑ l : Fin 4096,
          PoolSpec.gateK (x0 (ix2 b l)) (x1 (ix2 b l)) (x2 (ix2 0 h)) (x2 (ix2 1 h)) (x3 (ix1 h)) (x4 (ix1 h))
            (x5 (ix2 0 h)) (x5 (ix2 1 h)) (x6 (ix1 h)) (x7 (ix1 h))
          * (if 4096 * (7 * (i 0).val + (i 1).val) + l.val < 50000 then (1 : EReal) else 0) := by
  unfold tileStep k0_pay1
  rw [shapeCast_self]
  refine congrArg (acc (ix2 b h) + ·) ((laneSum_apply _ _ _ _ b h).trans (Finset.sum_congr rfl fun l _ => ?_))
  simp only [mulf_apply, subf_apply, addf_apply, broadcast_apply, logistic, tanh, Ideal.logistic_def, Ideal.tanh_def]
  rw [preZ_apply, preH0_apply, place_weight (i 0).val (i 1).val hi0 hi1]
  unfold k0_pay5 k0_pay6 k0_pay7
  rw [lanes_apply x1, chan_row_apply x5 1 ![1, 0] rfl, chan_apply]
  rfl

end Cert.KernelIdeal.Cell

end
-- ==== Proof.KernelBody.lean ====
/-
  What each case of the pooling kernel's body leaves behind, as values.

  The body has three cases by the position of the grid point within its core's seven tiles. At the first tile it
  clears the running sum, then adds the tile's sum; at the tiles in between it adds the tile's sum to the running
  sum it finds; at the last tile it does the same and copies the running sum into the core's output block. In every
  case the running sum left is one step (`Cell.tileStep`) from the one found, the cleared one at the first tile.
-/
import proofs.«172272_j9809705304183_2_alg».proof.Proof.Gen.KernelIdeal.Frame
import proofs.«172272_j9809705304183_2_alg».proof.Proof.KernelCell
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem Idealize.ShloMosaic.Tactic
open Cert.KernelIdeal.Cell (tileStep)

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The cleared running sum: the zero block. -/
abbrev cleared : Vec F S8x16 .f32 := k0_pay3 (F := F)

/-- A tile in between: the running sum left is one step from the one found. -/
theorem scratch_B (c : Dev nD) (i : grid0.Coords) (arg2 : Memref sig .tc .vmem S8x4096 .f32) (harg2 : arg2.IsWhole) (arg3 : Memref sig .tc .vmem S8x4096 .f32) (harg3 : arg3.IsWhole) (arg4 : Memref sig .tc .vmem S2x16 .f32) (harg4 : arg4.IsWhole) (arg5 : Memref sig .tc .vmem S16 .f32) (harg5 : arg5.IsWhole) (arg6 : Memref sig .tc .vmem S16 .f32) (harg6 : arg6.IsWhole) (arg7 : Memref sig .tc .vmem S2x16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x8x16 .f32) (harg10 : arg10.IsWhole) (arg11 : Memref sig .tc .vmem S8x16 .f32) (harg11 : arg11.IsWhole) (hc0 : ¬cond0_0 i) (hc1 : ¬cond0_1 i)
    (x0 : Vec F S8x4096 .f32) (x1 : Vec F S8x4096 .f32) (x2 : Vec F S2x16 .f32) (x3 : Vec F S16 .f32) (x4 : Vec F S16 .f32) (x5 : Vec F S2x16 .f32) (x6 : Vec F S16 .f32) (x7 : Vec F S16 .f32) (xs0 : Vec F S8x16 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = tileStep i x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  unfold tileStep
  simp only [View.readAt_eq_ld, harg2.read_unread, harg3.read_unread, harg4.read_unread, harg5.read_unread, harg6.read_unread, harg7.read_unread, harg8.read_unread, harg9.read_unread, harg10.read_unread, harg11.read_unread, View.ld_unit_zero (S := S8x4096) hz2, View.ld_unit_zero (S := S2x16) hz2, View.ld_unit_zero (S := S16) hz1, View.ld_unit_zero (S := S8x16) hz2, View.ld_unit_zero (S := S1x8x16) hz3]

/-- The last tile of a core: the running sum left is one step from the one found. -/
theorem scratch_C (c : Dev nD) (i : grid0.Coords) (arg2 : Memref sig .tc .vmem S8x4096 .f32) (harg2 : arg2.IsWhole) (arg3 : Memref sig .tc .vmem S8x4096 .f32) (harg3 : arg3.IsWhole) (arg4 : Memref sig .tc .vmem S2x16 .f32) (harg4 : arg4.IsWhole) (arg5 : Memref sig .tc .vmem S16 .f32) (harg5 : arg5.IsWhole) (arg6 : Memref sig .tc .vmem S16 .f32) (harg6 : arg6.IsWhole) (arg7 : Memref sig .tc .vmem S2x16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x8x16 .f32) (harg10 : arg10.IsWhole) (arg11 : Memref sig .tc .vmem S8x16 .f32) (harg11 : arg11.IsWhole) (hc0 : ¬cond0_0 i) (hc1 : cond0_1 i)
    (x0 : Vec F S8x4096 .f32) (x1 : Vec F S8x4096 .f32) (x2 : Vec F S2x16 .f32) (x3 : Vec F S16 .f32) (x4 : Vec F S16 .f32) (x5 : Vec F S2x16 .f32) (x6 : Vec F S16 .f32) (x7 : Vec F S16 .f32) (xs0 : Vec F S8x16 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = tileStep i x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  unfold tileStep
  simp only [View.readAt_eq_ld, harg2.read_unread, harg3.read_unread, harg4.read_unread, harg5.read_unread, harg6.read_unread, harg7.read_unread, harg8.read_unread, harg9.read_unread, harg10.read_unread, harg11.read_unread, View.ld_unit_zero (S := S8x4096) hz2, View.ld_unit_zero (S := S2x16) hz2, View.ld_unit_zero (S := S16) hz1, View.ld_unit_zero (S := S8x16) hz2, View.ld_unit_zero (S := S1x8x16) hz3]

/-- The last tile of a core: the output block written is the running sum left there, laid out [1,8,16]. -/
theorem out_C (c : Dev nD) (i : grid0.Coords) (arg2 : Memref sig .tc .vmem S8x4096 .f32) (harg2 : arg2.IsWhole) (arg3 : Memref sig .tc .vmem S8x4096 .f32) (harg3 : arg3.IsWhole) (arg4 : Memref sig .tc .vmem S2x16 .f32) (harg4 : arg4.IsWhole) (arg5 : Memref sig .tc .vmem S16 .f32) (harg5 : arg5.IsWhole) (arg6 : Memref sig .tc .vmem S16 .f32) (harg6 : arg6.IsWhole) (arg7 : Memref sig .tc .vmem S2x16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x8x16 .f32) (harg10 : arg10.IsWhole) (arg11 : Memref sig .tc .vmem S8x16 .f32) (harg11 : arg11.IsWhole) (hc0 : ¬cond0_0 i) (hc1 : cond0_1 i)
    (x0 : Vec F S8x4096 .f32) (x1 : Vec F S8x4096 .f32) (x2 : Vec F S2x16 .f32) (x3 : Vec F S16 .f32) (x4 : Vec F S16 .f32) (x5 : Vec F S2x16 .f32) (x6 : Vec F S16 .f32) (x7 : Vec F S16 .f32) (xs0 : Vec F S8x16 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (tileStep i x0 x1 x2 x3 x4 x5 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz3, View.readCov_unit_zero (S := S8x16) _ hz2]
  unfold tileStep
  simp only [View.readAt_eq_ld, harg2.read_unread, harg3.read_unread, harg4.read_unread, harg5.read_unread, harg6.read_unread, harg7.read_unread, harg8.read_unread, harg9.read_unread, harg10.read_unread, harg11.read_unread, View.ld_unit_zero (S := S8x4096) hz2, View.ld_unit_zero (S := S2x16) hz2, View.ld_unit_zero (S := S16) hz1, View.ld_unit_zero (S := S8x16) hz2, View.ld_unit_zero (S := S1x8x16) hz3]

/-- The first tile of a core: the running sum left is one step from the cleared one. -/
theorem scratch_A (c : Dev nD) (i : grid0.Coords) (arg2 : Memref sig .tc .vmem S8x4096 .f32) (harg2 : arg2.IsWhole) (arg3 : Memref sig .tc .vmem S8x4096 .f32) (harg3 : arg3.IsWhole) (arg4 : Memref sig .tc .vmem S2x16 .f32) (harg4 : arg4.IsWhole) (arg5 : Memref sig .tc .vmem S16 .f32) (harg5 : arg5.IsWhole) (arg6 : Memref sig .tc .vmem S16 .f32) (harg6 : arg6.IsWhole) (arg7 : Memref sig .tc .vmem S2x16 .f32) (harg7 : arg7.IsWhole) (arg8 : Memref sig .tc .vmem S16 .f32) (harg8 : arg8.IsWhole) (arg9 : Memref sig .tc .vmem S16 .f32) (harg9 : arg9.IsWhole) (arg10 : Memref sig .tc .vmem S1x8x16 .f32) (harg10 : arg10.IsWhole) (arg11 : Memref sig .tc .vmem S8x16 .f32) (harg11 : arg11.IsWhole) (hc0 : cond0_0 i) (hc1 : ¬cond0_1 i)
    (x0 : Vec F S8x4096 .f32) (x1 : Vec F S8x4096 .f32) (x2 : Vec F S2x16 .f32) (x3 : Vec F S16 .f32) (x4 : Vec F S16 .f32) (x5 : Vec F S2x16 .f32) (x6 : Vec F S16 .f32) (x7 : Vec F S16 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = tileStep i x0 x1 x2 x3 x4 x5 x6 x7 (cleared (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S8x16) hz2, View.readCov_unit_zero (S := S8x16) _ hz2]
  unfold tileStep
  simp only [View.readAt_eq_ld, harg2.read_unread, harg3.read_unread, harg4.read_unread, harg5.read_unread, harg6.read_unread, harg7.read_unread, harg8.read_unread, harg9.read_unread, harg10.read_unread, harg11.read_unread, View.ld_unit_zero (S := S8x4096) hz2, View.ld_unit_zero (S := S2x16) hz2, View.ld_unit_zero (S := S16) hz1, View.ld_unit_zero (S := S8x16) hz2, View.ld_unit_zero (S := S1x8x16) hz3]

end Cert.KernelIdeal.Body

end
-- ==== Proof.KernelAcc.lean ====
/-
  The pooling kernel's running sum, grid point by grid point.

  The fourteen grid points are the seven tiles of core 0 followed by the seven tiles of core 1. The running sum after a
  point is one step (`Cell.tileStep`) of the point's blocks from the running sum after the point before, or from the
  cleared sum at a core's first tile (`acc`); what the generated frame run records as the scratch contents after each
  point is this running sum (`outsAt_acc`), and the block written back at a core's last tile is the running sum there,
  laid out [1,8,16] (`outsAt_out`).
-/
import proofs.«172272_j9809705304183_2_alg».proof.Proof.KernelBody

set_option maxRecDepth 16384

noncomputable section

namespace Cert.KernelIdeal.Pool

open Cert.KernelIdeal Cert.KernelIdeal.Gen Idealize.ShloMosaic Idealize.ShloMosaic.TcCoe Idealize.SL.Sem
open Cert.KernelIdeal.Cell (tileStep)
open Cert.KernelIdeal.Body (cleared)

variable {F : FTy → Type} [FloatOps F]
variable (m : (ℓ : Loc nD τ sig) → Buf (Elt F) ℓ)

/-- The running sum after grid point `n`. -/
def acc (c : Dev nD) : (n : ℕ) → n < cfg0.N → Vec F S8x16 .f32
  | 0, h => tileStep (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (cleared (F := F))
  | n + 1, h => tileStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
      (if (n + 1) % 7 = 0 then cleared (F := F) else acc c n (Nat.lt_of_succ_lt h))

theorem acc_zero (c : Dev nD) (h : 0 < cfg0.N) :
    acc m c 0 h = tileStep (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (cleared (F := F)) := rfl

theorem acc_succ (c : Dev nD) (n : ℕ) (h : n + 1 < cfg0.N) :
    acc m c (n + 1) h = tileStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
      (if (n + 1) % 7 = 0 then cleared (F := F) else acc m c n (Nat.lt_of_succ_lt h)) := rfl

/-- The scratch contents the frame run records after point `n` are the running sum. -/
theorem outsAt_acc (c : Dev nD) : ∀ (n : ℕ) (h : n < cfg0.N), (outsAt0 m c n h).2 = acc m c n h
  | 0, h => by
    rw [outsAt0_A m c ⟨0, h⟩ (Nat.zero_mod _) (by show ¬(0 % 7 = 6); decide), acc_zero]
    exact Body.scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) scM0_0 (Memref.isWhole_whole _)
      ((hcond0_0 ⟨0, h⟩).mpr (Nat.zero_mod _)) (fun e => absurd ((hcond0_1 ⟨0, h⟩).mp e) (by show ¬(0 % 7 = 6); decide)) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩)
  | n + 1, h => by
    have hN : n + 1 < 14 := lt_of_lt_of_eq h N_0
    rw [acc_succ]
    by_cases h0 : (n + 1) % 7 = 0
    · have h1 : ¬(n + 1) % 7 = 6 := by omega
      rw [outsAt0_A m c ⟨n + 1, h⟩ h0 h1, if_pos h0]
      exact Body.scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _)
        ((hcond0_0 ⟨n + 1, h⟩).mpr h0) (fun e => h1 ((hcond0_1 ⟨n + 1, h⟩).mp e)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩)
    · rw [if_neg h0, ← outsAt_acc c n (Nat.lt_of_succ_lt h)]
      by_cases h1 : (n + 1) % 7 = 6
      · rw [outsAt0_C m c ⟨n + 1, h⟩ h0 h1]
        exact Body.scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _)
          (fun e => h0 ((hcond0_0 ⟨n + 1, h⟩).mp e)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _
      · rw [outsAt0_B m c ⟨n + 1, h⟩ h0 h1]
        exact Body.scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _)
          (fun e => h0 ((hcond0_0 ⟨n + 1, h⟩).mp e)) (fun e => h1 ((hcond0_1 ⟨n + 1, h⟩).mp e)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) _

/-- At a core's last tile the output block the frame run records is the running sum there, laid out [1,8,16]. -/
theorem outsAt_out (c : Dev nD) (t : Fin cfg0.N) (h6 : t.val % 7 = 6) :
    (outsAt0 m c t.val t.isLt).1 = k0_pay2 (acc m c t.val t.isLt) := by
  obtain ⟨n, h⟩ := t
  cases n with
  | zero => exact absurd h6 (by show ¬(0 % 7 = 6); decide)
  | succ n =>
    have h0 : ¬(n + 1) % 7 = 0 := by dsimp only at h6; omega
    rw [outsAt0_C m c ⟨n + 1, h⟩ h0 h6]
    refine (Body.out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _)
      (fun e => h0 ((hcond0_0 ⟨n + 1, h⟩).mp e)) ((hcond0_1 ⟨n + 1, h⟩).mpr h6) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (outsAt0 m c n (Nat.lt_of_succ_lt h)).2).trans ?_
    rw [acc_succ, if_neg h0, outsAt_acc]

end Cert.KernelIdeal.Pool

end
-- ==== Proof.KernelValue.lean ====
/-
  The pooling kernel's run, read: what its result holds after every weakly fair execution.

  The region's output array [2,8,16] is written back twice, after each core's last tile, block `q` holding core `q`'s
  running sum there (`outArr`, `final`). The host lines after the region add the two cores' blocks from zero, divide by
  50000, clamp at zero, contract against the output weights and add the output bias (`tail`); the result buffer ends
  at `tail` of the output array (`run`), and the argument arrays end unchanged.
-/
import proofs.«172272_j9809705304183_2_alg».proof.Proof.KernelAcc
import Idealize.ShloMosaic.Lib.Pipeline.Value
import Idealize.ShloMosaic.Lib.StableHlo.Run
import Idealize.ShloMosaic.Lib.Tactic

set_option maxRecDepth 16384

noncomputable section

namespace Cert.KernelIdeal.Out

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx
open Idealize.ShloMosaic.Pipeline (Dat)
open Cert.KernelIdeal.Pool (acc)

variable {F : FTy → Type} [FloatOps F]
variable (m : (ℓ : Loc nD τ sig) → Buf (Elt F) ℓ) (ρ : Dev nD → PrngReg)

/-- The running sum depends on the position and the entry only. -/
theorem acc_congr (c : Dev nD) {n n' : ℕ} (e : n = n') (hn : n < cfg0.N) (hn' : n' < cfg0.N) (j j' : S8x16.Idx)
    (ej : j = j') : acc m c n hn j = acc m c n' hn' j' := by
  subst e; subst ej; rfl

/-- The region's output array after the run: block `q` is core `q`'s running sum after its last tile. -/
def outArr (c : Dev nD) : (⟨S2x8x16, .f32⟩ : BufTy).Contents (Elt F) := fun i =>
  acc m c (7 * (i 0).val + 6) (by have h : (i 0).val < 2 := (i 0).isLt; rw [show cfg0.N = 14 from N_0]; omega)
    (ix2 (⟨(i 1).val, (i 1).isLt⟩ : Fin 8) (⟨(i 2).val, (i 2).isLt⟩ : Fin 16))

/-- Where the output's blocks sit: block `t / 7` along the core axis, the whole of the other two. -/
theorem idx_out : ∀ t : Fin cfg0.N, win0_8.index t (0 : Fin 3) = t.val / 7 ∧ win0_8.index t (1 : Fin 3) = 0
    ∧ win0_8.index t (2 : Fin 3) = 0 :=
  (by decide +kernel : ∀ t : Fin grid0.N, win0_8.index t (0 : Fin 3) = t.val / 7 ∧ win0_8.index t (1 : Fin 3) = 0
    ∧ win0_8.index t (2 : Fin 3) = 0)

/-- WHAT A CORE'S LAST POINT WRITES BACK is its block of `outArr`. -/
theorem flushed_eq (c : Dev nD) (t : Fin cfg0.N) (hf : (cfg0.win 8).flush t = true) :
    (dats m 0 c).flushed 8 t = ((cfg0.win 8).blk t).view.read (Elt F) (outArr m c) := by
  have h6 : t.val % 7 = 6 := (flush0_8 t).mp hf
  have hN : t.val < 14 := lt_of_lt_of_eq t.isLt N_0
  obtain ⟨q0, q1, q2⟩ := idx_out t
  show (cfg0.win 8).cut (grid0.coords t) ((dats m 0 c).after 8 t) = _
  rw [after0_8, Pool.outsAt_out m c t h6]
  funext y
  show k0_pay2 (acc m c t.val t.isLt) y = outArr m c (((cfg0.win 8).blk t).view.emb y)
  have hy0 : (y 0).val = 0 := by have h : (y 0).val < 1 := (y 0).isLt; omega
  have hy1 : (y 1).val < 8 := (y 1).isLt
  have hy2 : (y 2).val < 16 := (y 2).isLt
  unfold k0_pay2
  refine (shapeCast_apply _ shapeCasts_S8x16_S1x8x16 y (ix2 (⟨(y 1).val, hy1⟩ : Fin 8) (⟨(y 2).val, hy2⟩ : Fin 16)) ?_).trans ?_
  · rw [Shape.rowMajor_val_two, Shape.rowMajor_val_three]
    show (y 1).val * 16 + (y 2).val = ((y 0).val * 8 + (y 1).val) * 16 + (y 2).val
    rw [hy0]; omega
  · unfold outArr
    refine acc_congr m c ?_ _ _ _ _ ?_
    · show t.val = 7 * (win0_8.index t 0 * 1 + 1 * (y 0).val) + 6
      rw [q0, hy0]; omega
    · congr 1
      · apply Fin.ext
        show (y 1).val = win0_8.index t 1 * 8 + 1 * (y 1).val
        rw [q1]; omega
      · apply Fin.ext
        show (y 2).val = win0_8.index t 2 * 16 + 1 * (y 2).val
        rw [q2]; omega

/-- So the output array ends at `outArr`: the two write-backs cover it. -/
theorem final (c : Dev nD) : (dats m 0 c).arrAt 8 cfg0.N = outArr m c :=
  (dats m 0 c).arrAt_eq_of_cover 8 (outArr m c) (flushed_eq m c) fun i => by
    have hi0 : (i 0).val < 2 := (i 0).isLt
    have hi1 : (i 1).val < 8 := (i 1).isLt
    have hi2 : (i 2).val < 16 := (i 2).isLt
    have ht : 7 * (i 0).val + 6 < grid0.N := by rw [N_0]; omega
    obtain ⟨q0, q1, q2⟩ := idx_out ⟨7 * (i 0).val + 6, ht⟩
    refine ⟨⟨7 * (i 0).val + 6, ht⟩, (flush0_8 _).mpr (by show (7 * (i 0).val + 6) % 7 = 6; omega), ?_⟩
    show i ∈ ((View.whole main_v59).slice (win0_8.rect ⟨7 * (i 0).val + 6, ht⟩)).set
    rw [View.set_slice_whole, Rect.mem_set_unit]
    intro a
    match a with
    | ⟨0, _⟩ =>
      show win0_8.index ⟨7 * (i 0).val + 6, ht⟩ 0 * 1 ≤ (i 0).val ∧ (i 0).val < win0_8.index ⟨7 * (i 0).val + 6, ht⟩ 0 * 1 + 1
      rw [q0]; show (7 * (i 0).val + 6) / 7 * 1 ≤ (i 0).val ∧ (i 0).val < (7 * (i 0).val + 6) / 7 * 1 + 1; omega
    | ⟨1, _⟩ =>
      show win0_8.index ⟨7 * (i 0).val + 6, ht⟩ 1 * 8 ≤ (i 1).val ∧ (i 1).val < win0_8.index ⟨7 * (i 0).val + 6, ht⟩ 1 * 8 + 8
      rw [q1]; omega
    | ⟨2, _⟩ =>
      show win0_8.index ⟨7 * (i 0).val + 6, ht⟩ 2 * 16 ≤ (i 2).val ∧ (i 2).val < win0_8.index ⟨7 * (i 0).val + 6, ht⟩ 2 * 16 + 16
      rw [q2]; omega

/-! ## The host lines after the region -/

/-- The host lines after the region, as one function of the region's output array, the output weights and the output
    bias: the cores' blocks added from zero, divided by 50000, clamped at zero, contracted against the weights, plus
    the bias. -/
def tail (o : (⟨S2x8x16, .f32⟩ : BufTy).Contents (Elt F)) (wl : (⟨S1x16, .f32⟩ : BufTy).Contents (Elt F))
    (bl : (⟨S1, .f32⟩ : BufTy).Contents (Elt F)) : (⟨S8x1, .f32⟩ : BufTy).Contents (Elt F) :=
  addf (Host.dotGeneral dot_S8x16_S16x1_S8x1_1_0_0_1_n_n none
      (maximumf
        (Host.divf (Host.reduceAdd o (constant S_ .f32 0x00000000#32) reducesTo_S2x8x16_S8x16_d0 h_S_)
          (broadcastInDim S8x16 ![] bcast_S_S8x16 (constant S_ .f32 0x47435000#32)))
        (broadcastInDim S8x16 ![] bcast_S_S8x16 (constant S_ .f32 0x00000000#32)))
      (transpose S16x1 [1, 0] wl transposes_S1x16_S16x1_1_0))
    (broadcastInDim S8x1 ![0, 1] bcast_S1x1_S8x1_0_1 (broadcastInDim S1x1 ![1] bcast_S1_S1x1_1 bl))

set_option maxHeartbeats 8000000 in
/-- What the host lines after the region leave in the result buffer. -/
theorem tail_eq (c : Dev nD) :
    Pipeline.afterTail₀ cfgs (dats m) 0 (V0 m) [hostOps1, hostOps1_1, hostOps1_2] c main_v68
      = tail ((dats m 0 c).arrAt 8 cfg0.N) (m ((c : Thread nD τ).loc main_arg8)) (m ((c : Thread nD τ).loc main_arg9)) := by
  unfold Pipeline.afterTail₀
  simp only [Gen.hostOps1, Gen.hostOps1_1, Gen.hostOps1_2, List.flatten_cons, List.flatten_nil, List.append_nil, List.cons_append, List.nil_append]
  after_results_simp
  have e8 : Pipeline.withArrays (cfgs 0).spec c (V0 m c) (fun w => (dats m 0 c).arrAt w (cfgs 0).N) (Proc.devRef .tc main_v59)
      = (dats m 0 c).arrAt 8 cfg0.N := Pipeline.withArrays_arr spec0 launch0.win.arr_inj c (V0 m c) _ 8
  have ea8 : Pipeline.withArrays (cfgs 0).spec c (V0 m c) (fun w => (dats m 0 c).arrAt w (cfgs 0).N) (Proc.devRef .tc main_arg8)
      = m ((c : Thread nD τ).loc main_arg8) :=
    (Pipeline.withArrays_of_ne spec0 c (V0 m c) _ main_arg8 (by decide)).trans (V_main_arg8 m c)
  have ea9 : Pipeline.withArrays (cfgs 0).spec c (V0 m c) (fun w => (dats m 0 c).arrAt w (cfgs 0).N) (Proc.devRef .tc main_arg9)
      = m ((c : Thread nD τ).loc main_arg9) :=
    (Pipeline.withArrays_of_ne spec0 c (V0 m c) _ main_arg9 (by decide)).trans (V_main_arg9 m c)
  rw [e8, ea8, ea9]
  rfl

/-! ## The run -/

/-- At the compiled mesh, for any float values, from any memory with zero counters: every weakly fair execution of
    @main terminates, with the result at `tail` of the region's output array and the arguments unchanged. -/
theorem run : θ_run defs (onTc (τ := τ) (main (F := F))) ⟨m, fun _ => 0, ρ⟩ fun r => ∀ c : Dev nD,
      r.2.mem ((c : Thread nD τ).loc main_v68)
        = tail (outArr m c) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c =>
    ⟨((h c).2 main_v68 (Pipeline.mem_restRefs_of main_v68 (by decide) (by decide))).trans
        ((tail_eq m c).trans (congrArg (fun o => tail o (m ((c : Thread nD τ).loc main_arg8)) (m ((c : Thread nD τ).loc main_arg9))) (final m c))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Out

end
-- ==== Proof.KernelPrefix.lean ====
/-
  The arrays the pooling region finds, and its input blocks read at an index.

  Before the region the host slices the last timestep out of the node features, lays it out [8,50000], scatters the
  weighted neighbour features into the Laplacian feature [8,50000], and pads both with zeros to 57344 columns. The
  region's first two windows cut these padded arrays into fourteen tiles of 4096 columns, tile `t` holding columns
  `4096 t` to `4096 t + 4095`; its other six windows hold the weights and biases whole at every point.
-/
import proofs.«172272_j9809705304183_2_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run
import Idealize.ShloMosaic.Lib.Tactic

set_option maxRecDepth 16384

noncomputable section

namespace Cert.KernelIdeal.Prefix

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx

variable {F : FTy → Type} [FloatOps F]
variable (m : (ℓ : Loc nD τ sig) → Buf (Elt F) ℓ)

/-! ## What the host lines before the region leave -/

/-- The last timestep of the node features, laid out [8,50000]. -/
abbrev lastStep (x : (⟨S8x6x50000x1, .f32⟩ : BufTy).Contents (Elt F)) : (⟨S8x50000, .f32⟩ : BufTy).Contents (Elt F) :=
  shapeCast S8x50000 (extractStridedSlice S8x1x50000x1 ![0, 5, 0, 0] x slices_S8x6x50000x1_S8x1x50000x1_0_5_0_0)
    shapeCasts_S8x1x50000x1_S8x50000

/-- A [8,50000] array padded with zeros to 57344 columns. -/
abbrev padded (x : (⟨S8x50000, .f32⟩ : BufTy).Contents (Elt F)) : (⟨S8x57344, .f32⟩ : BufTy).Contents (Elt F) :=
  pad S8x57344 ![0, 0] ![0, 7344] ![0, 0] x (sitofp .f32 (constantI S_ 32 0#32) : (⟨S_, .f32⟩ : BufTy).Contents (Elt F))
    pads_S8x50000_S8x57344_000_073440 h_S_

set_option maxHeartbeats 8000000 in
theorem v38_eq (c : Dev nD) : (V m c main_v38 : (⟨S8x50000, .f32⟩ : BufTy).Contents (Elt F))
    = lastStep (m ((c : Thread nD τ).loc main_arg0)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 8000000 in
theorem v57_eq (c : Dev nD) : (V m c main_v57 : (⟨S8x57344, .f32⟩ : BufTy).Contents (Elt F))
    = padded (V m c main_v38 : (⟨S8x50000, .f32⟩ : BufTy).Contents (Elt F)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 8000000 in
theorem v58_eq (c : Dev nD) : (V m c main_v58 : (⟨S8x57344, .f32⟩ : BufTy).Contents (Elt F))
    = padded (V m c main_v56 : (⟨S8x50000, .f32⟩ : BufTy).Contents (Elt F)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-- The Laplacian feature: the neighbour features gathered at the edges' sources, scaled by the edge weights and
    scatter-added from zero at the edges' targets. -/
abbrev laplacian (x : (⟨S8x50000, .f32⟩ : BufTy).Contents (Elt F)) (src dst : (⟨S1600000x1, .i32⟩ : BufTy).Contents (Elt F))
    (w : (⟨S1600000, .f32⟩ : BufTy).Contents (Elt F)) : (⟨S8x50000, .f32⟩ : BufTy).Contents (Elt F) :=
  Host.scatterAdd scatter_S8x50000_S1600000x1_S8x1600000_0_1_1_1
    (broadcastInDim S8x50000 ![] bcast_S_S8x50000 (constant S_ .f32 0x00000000#32)) dst
    (mulf (Host.gather gather_S8x50000_S1600000x1_S8x1600000_0_1_n_n_1_1_81 x src)
      (broadcastInDim S8x1600000 ![0, 1] bcast_S1x1600000_S8x1600000_0_1
        (broadcastInDim S1x1600000 ![1] bcast_S1600000_S1x1600000_1 w)))

set_option maxHeartbeats 16000000 in
theorem v56_eq (c : Dev nD) : (V m c main_v56 : (⟨S8x50000, .f32⟩ : BufTy).Contents (Elt F))
    = laplacian (V m c main_v38 : (⟨S8x50000, .f32⟩ : BufTy).Contents (Elt F))
        (V m c main_v45 : (⟨S1600000x1, .i32⟩ : BufTy).Contents (Elt F))
        (V m c main_v55 : (⟨S1600000x1, .i32⟩ : BufTy).Contents (Elt F))
        (V m c main_v36 : (⟨S1600000, .f32⟩ : BufTy).Contents (Elt F)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp

/-! ## Read at an index -/

/-- The last timestep at (b,n): the node features at (b,5,n,0). -/
theorem lastStep_apply {α : Type} (x : S8x6x50000x1.Idx → α) (b : Fin 8) (n : Fin 50000) :
    shapeCast S8x50000 (extractStridedSlice S8x1x50000x1 ![0, 5, 0, 0] x slices_S8x6x50000x1_S8x1x50000x1_0_5_0_0)
      shapeCasts_S8x1x50000x1_S8x50000 (ix2 b n) = x (ix4 b (5 : Fin 6) n (0 : Fin 1)) := by
  rw [shapeCast_apply _ shapeCasts_S8x1x50000x1_S8x50000 (ix2 b n) (ix4 b (0 : Fin 1) n (0 : Fin 1)) (by
    rw [Shape.rowMajor_val_two, Shape.rowMajor_val_four]
    show ((b.val * 1 + 0) * 50000 + n.val) * 1 + 0 = b.val * 50000 + n.val
    omega)]
  exact extractStridedSlice_apply _ x slices_S8x6x50000x1_S8x1x50000x1_0_5_0_0 (ix4 b (0 : Fin 1) n (0 : Fin 1))
    (ix4 b (5 : Fin 6) n (0 : Fin 1)) (fun a => by
      match a with
      | ⟨0, _⟩ => show b.val = 0 + b.val; omega
      | ⟨1, _⟩ => show 5 = 5 + 0; omega
      | ⟨2, _⟩ => show n.val = 0 + n.val; omega
      | ⟨3, _⟩ => show 0 = 0 + 0; omega)

/-- A padded array at a column below 50000: the array there. -/
theorem padded_apply_inside {α : Type} (x : S8x50000.Idx → α) (v : S_.Idx → α) (b : Fin 8) (j : ℕ) (hj : j < 50000) :
    pad S8x57344 ![0, 0] ![0, 7344] ![0, 0] x v pads_S8x50000_S8x57344_000_073440 h_S_
      (ix2 b (⟨j, by omega⟩ : Fin 57344)) = x (ix2 b (⟨j, hj⟩ : Fin 50000)) :=
  pad_apply_of_inside _ _ _ x v pads_S8x50000_S8x57344_000_073440 h_S_ _ (ix2 b (⟨j, hj⟩ : Fin 50000)) (fun a => by
    match a with
    | ⟨0, _⟩ => show b.val = 0 + b.val * (0 + 1); omega
    | ⟨1, _⟩ => show j = 0 + j * (0 + 1); omega)

/-! ## The input blocks -/

/-- Where the tiled windows' blocks sit: block row 0, block column the point's position. -/
theorem idx_tiles : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, win0_0.index t (0 : Fin 2) = 0 ∧ win0_0.index t (1 : Fin 2) = t.val
    ∧ win0_1.index t (0 : Fin 2) = 0 ∧ win0_1.index t (1 : Fin 2) = t.val)

/-- The node-feature tile at point `t`, at (b,l): the padded array at column `4096 t + l`. -/
theorem iblk0_apply (c : Dev nD) (t : Fin cfg0.N) (b : Fin 8) (l : Fin 4096) (hlt : 4096 * t.val + l.val < 57344) :
    (iblk m c 0 t : Vec F S8x4096 .f32) (ix2 b l)
      = (V m c main_v57 : (⟨S8x57344, .f32⟩ : BufTy).Contents (Elt F)) (ix2 b (⟨4096 * t.val + l.val, hlt⟩ : Fin 57344)) := by
  unfold iblk
  rw [View.read_apply]
  show V m c main_v57 _ = V m c main_v57 _
  congr 1
  funext a
  apply Fin.ext
  match a with
  | ⟨0, _⟩ => show win0_0.index t 0 * 8 + 1 * b.val = b.val; rw [(idx_tiles t).1]; omega
  | ⟨1, _⟩ => show win0_0.index t 1 * 4096 + 1 * l.val = 4096 * t.val + l.val; rw [(idx_tiles t).2.1]; omega

/-- The Laplacian-feature tile at point `t`, at (b,l): the padded array at column `4096 t + l`. -/
theorem iblk1_apply (c : Dev nD) (t : Fin cfg0.N) (b : Fin 8) (l : Fin 4096) (hlt : 4096 * t.val + l.val < 57344) :
    (iblk m c 1 t : Vec F S8x4096 .f32) (ix2 b l)
      = (V m c main_v58 : (⟨S8x57344, .f32⟩ : BufTy).Contents (Elt F)) (ix2 b (⟨4096 * t.val + l.val, hlt⟩ : Fin 57344)) := by
  unfold iblk
  rw [View.read_apply]
  show V m c main_v58 _ = V m c main_v58 _
  congr 1
  funext a
  apply Fin.ext
  match a with
  | ⟨0, _⟩ => show win0_1.index t 0 * 8 + 1 * b.val = b.val; rw [(idx_tiles t).2.2.1]; omega
  | ⟨1, _⟩ => show win0_1.index t 1 * 4096 + 1 * l.val = 4096 * t.val + l.val; rw [(idx_tiles t).2.2.2]; omega

/-- The six whole windows' blocks sit at block index zero on every axis. -/
theorem idx_whole : ∀ t : Fin cfg0.N, (win0_2.index t (0 : Fin 2) = 0 ∧ win0_2.index t (1 : Fin 2) = 0)
    ∧ win0_3.index t (0 : Fin 1) = 0 ∧ win0_4.index t (0 : Fin 1) = 0
    ∧ (win0_5.index t (0 : Fin 2) = 0 ∧ win0_5.index t (1 : Fin 2) = 0)
    ∧ win0_6.index t (0 : Fin 1) = 0 ∧ win0_7.index t (0 : Fin 1) = 0 :=
  (by decide +kernel : ∀ t : Fin grid0.N, (win0_2.index t (0 : Fin 2) = 0 ∧ win0_2.index t (1 : Fin 2) = 0)
    ∧ win0_3.index t (0 : Fin 1) = 0 ∧ win0_4.index t (0 : Fin 1) = 0
    ∧ (win0_5.index t (0 : Fin 2) = 0 ∧ win0_5.index t (1 : Fin 2) = 0)
    ∧ win0_6.index t (0 : Fin 1) = 0 ∧ win0_7.index t (0 : Fin 1) = 0)

/-- The update gate's weights, whole at every point. -/
theorem iblk2_eq (c : Dev nD) (t : Fin cfg0.N) :
    (iblk m c 2 t : Vec F S2x16 .f32) = m ((c : Thread nD τ).loc main_arg2) := by
  rw [← V_main_arg2 m c]
  funext j
  unfold iblk
  rw [View.read_apply]
  show V m c main_arg2 _ = V m c main_arg2 j
  congr 1
  funext a
  apply Fin.ext
  match a with
  | ⟨0, _⟩ => show win0_2.index t 0 * 2 + 1 * (j 0).val = (j 0).val; rw [(idx_whole t).1.1]; omega
  | ⟨1, _⟩ => show win0_2.index t 1 * 16 + 1 * (j 1).val = (j 1).val; rw [(idx_whole t).1.2]; omega

theorem iblk3_eq (c : Dev nD) (t : Fin cfg0.N) :
    (iblk m c 3 t : Vec F S16 .f32) = m ((c : Thread nD τ).loc main_arg3) := by
  rw [← V_main_arg3 m c]
  funext j
  unfold iblk
  rw [View.read_apply]
  show V m c main_arg3 _ = V m c main_arg3 j
  congr 1
  funext a
  apply Fin.ext
  match a with
  | ⟨0, _⟩ => show win0_3.index t 0 * 16 + 1 * (j 0).val = (j 0).val; rw [(idx_whole t).2.1]; omega

theorem iblk4_eq (c : Dev nD) (t : Fin cfg0.N) :
    (iblk m c 4 t : Vec F S16 .f32) = m ((c : Thread nD τ).loc main_arg4) := by
  rw [← V_main_arg4 m c]
  funext j
  unfold iblk
  rw [View.read_apply]
  show V m c main_arg4 _ = V m c main_arg4 j
  congr 1
  funext a
  apply Fin.ext
  match a with
  | ⟨0, _⟩ => show win0_4.index t 0 * 16 + 1 * (j 0).val = (j 0).val; rw [(idx_whole t).2.2.1]; omega

/-- The candidate's weights, whole at every point. -/
theorem iblk5_eq (c : Dev nD) (t : Fin cfg0.N) :
    (iblk m c 5 t : Vec F S2x16 .f32) = m ((c : Thread nD τ).loc main_arg5) := by
  rw [← V_main_arg5 m c]
  funext j
  unfold iblk
  rw [View.read_apply]
  show V m c main_arg5 _ = V m c main_arg5 j
  congr 1
  funext a
  apply Fin.ext
  match a with
  | ⟨0, _⟩ => show win0_5.index t 0 * 2 + 1 * (j 0).val = (j 0).val; rw [(idx_whole t).2.2.2.1.1]; omega
  | ⟨1, _⟩ => show win0_5.index t 1 * 16 + 1 * (j 1).val = (j 1).val; rw [(idx_whole t).2.2.2.1.2]; omega

theorem iblk6_eq (c : Dev nD) (t : Fin cfg0.N) :
    (iblk m c 6 t : Vec F S16 .f32) = m ((c : Thread nD τ).loc main_arg6) := by
  rw [← V_main_arg6 m c]
  funext j
  unfold iblk
  rw [View.read_apply]
  show V m c main_arg6 _ = V m c main_arg6 j
  congr 1
  funext a
  apply Fin.ext
  match a with
  | ⟨0, _⟩ => show win0_6.index t 0 * 16 + 1 * (j 0).val = (j 0).val; rw [(idx_whole t).2.2.2.2.1]; omega

theorem iblk7_eq (c : Dev nD) (t : Fin cfg0.N) :
    (iblk m c 7 t : Vec F S16 .f32) = m ((c : Thread nD τ).loc main_arg7) := by
  rw [← V_main_arg7 m c]
  funext j
  unfold iblk
  rw [View.read_apply]
  show V m c main_arg7 _ = V m c main_arg7 j
  congr 1
  funext a
  apply Fin.ext
  match a with
  | ⟨0, _⟩ => show win0_7.index t 0 * 16 + 1 * (j 0).val = (j 0).val; rw [(idx_whole t).2.2.2.2.2]; omega

end Cert.KernelIdeal.Prefix

end
-- ==== Proof.KernelSum.lean ====
/-
  The pooling kernel's running sum in closed form, on the extended reals.

  Read entry by entry, a grid step adds to the running sum the weighted sum of the gated states over the tile's 4096
  columns of the padded feature arrays (`step_apply`). So after the point at position `n` the running sum is, from zero,
  the sum of the tile sums of the tiles of `n`'s core up to `n` (`acc_closed`), and after a core's last tile the sum
  of its seven tile sums.
-/
import proofs.«172272_j9809705304183_2_alg».proof.Proof.KernelAcc
import proofs.«172272_j9809705304183_2_alg».proof.Proof.KernelPrefix
import proofs.«172272_j9809705304183_2_alg».proof.Proof.PoolSpec

set_option maxRecDepth 16384

noncomputable section

namespace Cert.KernelIdeal.Sum

open Cert.KernelIdeal Cert.KernelIdeal.Gen Idealize.ShloMosaic Idealize.ShloMosaic.TcCoe Idealize.SL.Sem
open Idealize.ShloMosaic.ValueIdx
open Cert.KernelIdeal.Cell (tileStep tileStep_apply)
open Cert.KernelIdeal.Pool (acc acc_zero acc_succ)
open Cert.KernelIdeal.Body (cleared)

variable (m : (ℓ : Loc nD τ sig) → Buf (Elt Ideal) ℓ)

/-- A grid point's coordinates: its core and its tile within the core. -/
theorem coords_eq : ∀ t : Fin cfg0.N, ((grid0.coords t) 0).val = t.val / 7 ∧ ((grid0.coords t) 1).val = t.val % 7 :=
  (by decide +kernel : ∀ t : Fin grid0.N, ((grid0.coords t) 0).val = t.val / 7 ∧ ((grid0.coords t) 1).val = t.val % 7)

/-- The kernel's gated state at row `b`, channel `h` and column `j` of the padded arrays (zero past their width). -/
def cellAt (c : Dev nD) (b : Fin 8) (h : Fin 16) (j : ℕ) : EReal :=
  if hj : j < 57344 then
    PoolSpec.gateK ((V m c main_v57 : (⟨S8x57344, .f32⟩ : BufTy).Contents (Elt Ideal)) (ix2 b (⟨j, hj⟩ : Fin 57344)))
      ((V m c main_v58 : (⟨S8x57344, .f32⟩ : BufTy).Contents (Elt Ideal)) (ix2 b (⟨j, hj⟩ : Fin 57344)))
      ((m ((c : Thread nD τ).loc main_arg2) : (⟨S2x16, .f32⟩ : BufTy).Contents (Elt Ideal)) (ix2 0 h)) ((m ((c : Thread nD τ).loc main_arg2) : (⟨S2x16, .f32⟩ : BufTy).Contents (Elt Ideal)) (ix2 1 h)) ((m ((c : Thread nD τ).loc main_arg3) : (⟨S16, .f32⟩ : BufTy).Contents (Elt Ideal)) (ix1 h)) ((m ((c : Thread nD τ).loc main_arg4) : (⟨S16, .f32⟩ : BufTy).Contents (Elt Ideal)) (ix1 h))
      ((m ((c : Thread nD τ).loc main_arg5) : (⟨S2x16, .f32⟩ : BufTy).Contents (Elt Ideal)) (ix2 0 h)) ((m ((c : Thread nD τ).loc main_arg5) : (⟨S2x16, .f32⟩ : BufTy).Contents (Elt Ideal)) (ix2 1 h)) ((m ((c : Thread nD τ).loc main_arg6) : (⟨S16, .f32⟩ : BufTy).Contents (Elt Ideal)) (ix1 h)) ((m ((c : Thread nD τ).loc main_arg7) : (⟨S16, .f32⟩ : BufTy).Contents (Elt Ideal)) (ix1 h))
  else 0

/-- The weighted sum of tile `t`: its 4096 columns' gated states, a column from 50000 on weighted by zero. -/
def tileSum (c : Dev nD) (b : Fin 8) (h : Fin 16) (t : ℕ) : EReal :=
  ∑ l ∈ Finset.range 4096, cellAt m c b h (4096 * t + l) * (if 4096 * t + l < 50000 then (1 : EReal) else 0)

/-- A grid step at point `t`, entry by entry: the running sum found plus tile `t`'s weighted sum. -/
theorem step_apply (c : Dev nD) (t : Fin cfg0.N) (A : Vec Ideal S8x16 .f32) (b : Fin 8) (h : Fin 16) :
    tileStep (F := Ideal) (grid0.coords t) (iblk m c 0 t) (iblk m c 1 t) (iblk m c 2 t) (iblk m c 3 t) (iblk m c 4 t) (iblk m c 5 t) (iblk m c 6 t) (iblk m c 7 t) A (ix2 b h) = A (ix2 b h) + tileSum m c b h t.val := by
  have hN : t.val < 14 := lt_of_lt_of_eq t.isLt N_0
  obtain ⟨e0, e1⟩ := coords_eq t
  rw [tileStep_apply (grid0.coords t) (iblk m c 0 t) (iblk m c 1 t) (iblk m c 2 t) (iblk m c 3 t) (iblk m c 4 t) (iblk m c 5 t) (iblk m c 6 t) (iblk m c 7 t) A (by rw [e0]; omega) (by rw [e1]; omega) b h]
  refine congrArg (A (ix2 b h) + ·) ?_
  unfold tileSum
  rw [Finset.sum_range]
  refine Finset.sum_congr rfl fun l _ => ?_
  have ht : 7 * ((grid0.coords t) 0).val + ((grid0.coords t) 1).val = t.val := by rw [e0, e1]; omega
  have hl := l.isLt
  have hlt : 4096 * t.val + l.val < 57344 := by omega
  rw [ht]
  unfold cellAt
  rw [dif_pos hlt, Prefix.iblk0_apply m c t b l hlt, Prefix.iblk1_apply m c t b l hlt,
    congrFun (Prefix.iblk2_eq m c t) (ix2 0 h), congrFun (Prefix.iblk2_eq m c t) (ix2 1 h),
    congrFun (Prefix.iblk3_eq m c t) (ix1 h), congrFun (Prefix.iblk4_eq m c t) (ix1 h),
    congrFun (Prefix.iblk5_eq m c t) (ix2 0 h), congrFun (Prefix.iblk5_eq m c t) (ix2 1 h),
    congrFun (Prefix.iblk6_eq m c t) (ix1 h), congrFun (Prefix.iblk7_eq m c t) (ix1 h)]

/-- The cleared running sum is zero everywhere. -/
theorem cleared_apply (b : Fin 8) (h : Fin 16) : (cleared (F := Ideal)) (ix2 b h) = 0 := by
  unfold cleared k0_pay3
  rw [shapeCast_self]
  exact PoolSpec.ofBits_zero

/-- THE RUNNING SUM after the point at position `n`: from zero, the tile sums of the tiles of `n`'s core up to `n`. -/
theorem acc_closed (c : Dev nD) (b : Fin 8) (h : Fin 16) : ∀ (n : ℕ) (hn : n < cfg0.N),
    acc m c n hn (ix2 b h) = 0 + ∑ k ∈ Finset.range (n % 7 + 1), tileSum m c b h (7 * (n / 7) + k)
  | 0, hn => by
    rw [acc_zero, step_apply m c ⟨0, hn⟩ _ b h, cleared_apply]
    simp
  | n + 1, hn => by
    have hN : n + 1 < 14 := lt_of_lt_of_eq hn N_0
    rw [acc_succ, step_apply m c ⟨n + 1, hn⟩ _ b h]
    by_cases h0 : (n + 1) % 7 = 0
    · rw [if_pos h0, cleared_apply, h0]
      have : 7 * ((n + 1) / 7) = n + 1 := by omega
      simp [this]
    · rw [if_neg h0, acc_closed c b h n (Nat.lt_of_succ_lt hn)]
      have e1 : (n + 1) % 7 = n % 7 + 1 := by omega
      have e2 : (n + 1) / 7 = n / 7 := by omega
      have e3 : 7 * (n / 7) + (n % 7 + 1) = n + 1 := by omega
      rw [e1, e2, Finset.sum_range_succ (fun k => tileSum m c b h (7 * (n / 7) + k)) (n % 7 + 1), e3, add_assoc]

/-- After a core's last tile: from zero, the core's seven tile sums. -/
theorem acc_last (c : Dev nD) (b : Fin 8) (h : Fin 16) (q : ℕ) (hq : q < 2) (hn : 7 * q + 6 < cfg0.N) :
    acc m c (7 * q + 6) hn (ix2 b h) = 0 + ∑ k ∈ Finset.range 7, tileSum m c b h (7 * q + k) := by
  rw [acc_closed m c b h (7 * q + 6) hn]
  have e1 : (7 * q + 6) % 7 + 1 = 7 := by omega
  have e2 : (7 * q + 6) / 7 = q := by omega
  rw [e1, e2]

end Cert.KernelIdeal.Sum

end
-- ==== Proof.LibTypedRef.lean ====
/-
  Typed references of an inlined function call: contents carried along a type equation and back.

  A value of a called function lives in a buffer whose declared type equals the value's type by an equation
  (`StableHlo.TRef.ty_eq`); the builders of a called function's operations carry contents across that equation in both
  directions (`toBuf`, `ofBuf`: a `cast`). Three facts, none of which looks inside the contents:
    * `ofBuf_toBuf`: to the buffer's type and back is the identity, for any typed reference;
    * `toBuf_of`, `ofBuf_of`: at a literal reference taken at its own type each direction is the identity.
  With them the result of a line of a called function's operations is read free of casts, whatever the contents are.
  Imports Lib/StableHlo only; general in the signature and the element values.
-/
import Idealize.ShloMosaic.Lib.StableHlo

namespace Cert.TypedRef

open Idealize.ShloMosaic

/-- Contents carried to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- At a reference taken at its own type, carrying contents to the buffer's type is the identity. -/
theorem toBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).toBuf v = v := rfl

/-- And carrying them back is the identity. -/
theorem ofBuf_of {sg : RefSig} {Val : EltTy → Type} (r : Ref sg .tc) (h1 : r.ty = r.ty) (h2 : r.space ≠ .host)
    (h3 : r.isScoped = false) (v : r.ty.Contents Val) : (StableHlo.TRef.of (T := r.ty) r h1 h2 h3).ofBuf v = v := rfl

end Cert.TypedRef
-- ==== Proof.GraphStages.lean ====
/-
  The graph stages the two programs share.

  From the edge list both programs compute, by the same host operations, the edge sources and targets as start indices,
  the degree of every node (ones scatter-added at the sources), its inverse square root where the degree is positive
  and zero elsewhere, and the edge weights: minus the product of that factor at the source and at the target. Stage by
  stage the kernel's arrays are the reference's.
-/
import proofs.«172272_j9809705304183_2_alg».proof.Proof.KernelPrefix
import proofs.«172272_j9809705304183_2_alg».proof.Proof.RefReadPatched
import proofs.«172272_j9809705304183_2_alg».proof.Proof.LibTypedRef

set_option maxRecDepth 16384

noncomputable section

namespace Cert.KernelIdeal.Graph

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx

variable (m : (ℓ : Loc nD τ sig) → Buf (Elt Ideal) ℓ)

/-! ## The start indices -/

set_option maxHeartbeats 16000000 in
/-- The edge sources as scatter indices of the degree. -/
theorem degIdx_eq (c : Dev nD) : (V m c main_v10 : (⟨S1600000x1, .i32⟩ : BufTy).Contents (Elt Ideal)) = Cert.ReferenceIdeal.ReadP.val_main_v11 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 16000000 in
/-- The edge sources as start indices into the inverse-root factor. -/
theorem srcIdx_eq (c : Dev nD) : (V m c main_v26 : (⟨S1600000x1, .i32⟩ : BufTy).Contents (Elt Ideal)) = Cert.ReferenceIdeal.ReadP.val_main_v27 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 16000000 in
/-- The edge targets as start indices into the inverse-root factor. -/
theorem dstIdx_eq (c : Dev nD) : (V m c main_v34 : (⟨S1600000x1, .i32⟩ : BufTy).Contents (Elt Ideal)) = Cert.ReferenceIdeal.ReadP.val_main_v35 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 16000000 in
/-- The edge sources as start indices into the node features. -/
theorem src_eq (c : Dev nD) : (V m c main_v45 : (⟨S1600000x1, .i32⟩ : BufTy).Contents (Elt Ideal)) = Cert.ReferenceIdeal.ReadP.val_main_v44 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

set_option maxHeartbeats 16000000 in
/-- The edge targets as scatter indices of the Laplacian feature. -/
theorem dst_eq (c : Dev nD) : (V m c main_v55 : (⟨S1600000x1, .i32⟩ : BufTy).Contents (Elt Ideal)) = Cert.ReferenceIdeal.ReadP.val_main_v54 (F := Ideal) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  rfl

/-! ## Degree, inverse root, edge weights -/

set_option maxHeartbeats 16000000 in
/-- The degrees: ones scatter-added from zero at the edge sources. -/
theorem deg_eq (c : Dev nD) : (V m c main_v12 : (⟨S50000, .f32⟩ : BufTy).Contents (Elt Ideal)) = Cert.ReferenceIdeal.ReadP.val_main_v13 (F := Ideal) (m ((c : Thread nD τ).loc main_arg1)) := by
  have e : (V m c main_v12 : (⟨S50000, .f32⟩ : BufTy).Contents (Elt Ideal))
      = Host.scatterAdd scatter_S50000_S1600000x1_S1600000_n_0_0_1 (broadcastInDim S50000 ![] bcast_S_S50000 (constant (F := Ideal) S_ .f32 0x00000000#32)) (V m c main_v10 : (⟨S1600000x1, .i32⟩ : BufTy).Contents (Elt Ideal))
          (broadcastInDim S1600000 ![] bcast_S_S1600000 (constant (F := Ideal) S_ .f32 0x3F800000#32)) := by
    dsimp only [Gen.V, Gen.V0]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
  rw [e, degIdx_eq m c]
  rfl

set_option maxHeartbeats 16000000 in
/-- The inverse-root factor: `1 / sqrt (max deg 1)` where the degree is positive, zero elsewhere. -/
theorem dinv_eq (c : Dev nD) : (V m c main_v20 : (⟨S50000, .f32⟩ : BufTy).Contents (Elt Ideal)) = Cert.ReferenceIdeal.ReadP.val_main_v21 (F := Ideal) (m ((c : Thread nD τ).loc main_arg1)) := by
  have e : (V m c main_v20 : (⟨S50000, .f32⟩ : BufTy).Contents (Elt Ideal))
      = select (cmpf .ogt (V m c main_v12 : (⟨S50000, .f32⟩ : BufTy).Contents (Elt Ideal)) (broadcastInDim S50000 ![] bcast_S_S50000 (constant (F := Ideal) S_ .f32 0x00000000#32)))
          (Host.divf (broadcastInDim S50000 ![] bcast_S_S50000 (constant (F := Ideal) S_ .f32 0x3F800000#32)) (Host.sqrt (maximumf (V m c main_v12 : (⟨S50000, .f32⟩ : BufTy).Contents (Elt Ideal)) (broadcastInDim S50000 ![] bcast_S_S50000 (constant (F := Ideal) S_ .f32 0x3F800000#32)))))
          (broadcastInDim S50000 ![] bcast_S_S50000 (constant (F := Ideal) S_ .f32 0x00000000#32)) := by
    dsimp only [Gen.V, Gen.V0]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
    have c20 : ∀ (p1 : main_v20.ty = ⟨S50000, .f32⟩) (p2 : main_v20.space ≠ .host) (p3 : main_v20.isScoped = false)
        (v : (⟨S50000, .f32⟩ : BufTy).Contents (Elt Ideal)),
        (StableHlo.TRef.of (T := ⟨S50000, .f32⟩) main_v20 p1 p2 p3).toBuf v = v := fun _ _ _ _ => rfl
    have c14 : ∀ (p1 : main_v14.ty = ⟨S50000, .i1⟩) (p2 : main_v14.space ≠ .host) (p3 : main_v14.isScoped = false)
        (v : (⟨S50000, .i1⟩ : BufTy).Contents (Elt Ideal)),
        (StableHlo.TRef.of (T := ⟨S50000, .i1⟩) main_v14 p1 p2 p3).ofBuf v = v := fun _ _ _ _ => rfl
    have c19 : ∀ (p1 : main_v19.ty = ⟨S50000, .f32⟩) (p2 : main_v19.space ≠ .host) (p3 : main_v19.isScoped = false)
        (v : (⟨S50000, .f32⟩ : BufTy).Contents (Elt Ideal)),
        (StableHlo.TRef.of (T := ⟨S50000, .f32⟩) main_v19 p1 p2 p3).ofBuf v = v := fun _ _ _ _ => rfl
    have c5 : ∀ (p1 : main_cst_5.ty = ⟨S_, .f32⟩) (p2 : main_cst_5.space ≠ .host) (p3 : main_cst_5.isScoped = false)
        (v : (⟨S_, .f32⟩ : BufTy).Contents (Elt Ideal)),
        (StableHlo.TRef.of (T := ⟨S_, .f32⟩) main_cst_5 p1 p2 p3).ofBuf v = v := fun _ _ _ _ => rfl
    simp only [Cert.TypedRef.ofBuf_toBuf, c20, c14, c19, c5, id]
  rw [e, deg_eq m c]
  rfl

set_option maxHeartbeats 16000000 in
/-- The edge weights: minus the factor at the source times the factor at the target. -/
theorem weight_eq (c : Dev nD) : (V m c main_v36 : (⟨S1600000, .f32⟩ : BufTy).Contents (Elt Ideal)) = Cert.ReferenceIdeal.ReadP.val_main_v37 (F := Ideal) (m ((c : Thread nD τ).loc main_arg1)) := by
  have e : (V m c main_v36 : (⟨S1600000, .f32⟩ : BufTy).Contents (Elt Ideal))
      = mulf (F := Ideal) (φ := .f32) (Host.negf (F := Ideal) (φ := .f32) (Host.gather gather_S50000_S1600000x1_S1600000_n_0_n_n_0_1_1 (V m c main_v20 : (⟨S50000, .f32⟩ : BufTy).Contents (Elt Ideal)) (V m c main_v26 : (⟨S1600000x1, .i32⟩ : BufTy).Contents (Elt Ideal))))
          (Host.gather gather_S50000_S1600000x1_S1600000_n_0_n_n_0_1_1 (V m c main_v20 : (⟨S50000, .f32⟩ : BufTy).Contents (Elt Ideal)) (V m c main_v34 : (⟨S1600000x1, .i32⟩ : BufTy).Contents (Elt Ideal))) := by
    dsimp only [Gen.V, Gen.V0]
    simp only [Gen.hostOps0, Gen.hostOps0_1, Gen.hostOps0_2, Gen.hostOps0_3, Gen.hostOps0_4, Gen.hostOps0_5, List.flatten_cons, List.flatten_nil, List.append_nil, List.cons_append, List.nil_append]
    after_results_simp
  rw [e, dinv_eq m c, srcIdx_eq m c, dstIdx_eq m c]
  rfl

end Cert.KernelIdeal.Graph

end
-- ==== Proof.LibLaneScatter.lean ====
/-
  GATHER AND SCATTER-ADD ALONG THE LAST AXIS, read at an index.

  What indexing an array's LAST axis by an integer vector lowers to, when every leading axis is a window axis:

  • `stablehlo.gather` of an operand `[B, N]` (or `[B, T, N]`) at start indices `[E, 1]`, with the leading axes
    offset axes, the last axis collapsed and named by the start index map: result element `(b, e)` (or `(b, t, e)`)
    is the operand at `(b, k)` (or `(b, t, k)`), where `k` is the start index `idx[e, 0]` read as a signed integer
    and clamped into `[0, N − 1]` (`laneGather2_apply`, `laneGather3_apply`).

  • the accumulating float `stablehlo.scatter` over the extended reals of updates `[B, E]` (or `[B, T, E]`) into an
    operand `[B, N]` (or `[B, T, N]`) at scatter indices `[E, 1]`, the leading axes window axes, the last axis an
    inserted window axis named by the scatter-dims-to-operand-dims map: operand element `(b, n)` receives the sum of
    the updates `(b, e)` over the `e` whose start index `idx[e, 0]`, read as a signed integer and NOT clamped, is
    `n`; an update whose start index is negative or at least `N` lands nowhere (`laneScatterAdd2_apply`,
    `laneScatterAdd3_apply`).

  • hence the gather–multiply–scatter-add step of the rank-3 arrays, read at `(b, t0, n)`, is the rank-2 step on the
    slices at middle coordinate `t0`, read at `(b, n)` (`laneGraph_slice`).

  All statements are general in the extents `B`, `T`, `N`, `E` and in the integer width `w`.
-/
import Idealize.ShloMosaic.PureOps.Ideal
import Idealize.ShloMosaic.PureOps.Dims
import Idealize.ShloMosaic.PureOps.ShapeOps
import Idealize.ShloMosaic.Lib.ValueIdx

noncomputable section

open scoped BigOperators

namespace Cert.LibLaneScatter

open Idealize.ShloMosaic Idealize.ShloMosaic.ValueIdx

/-! ## Gather along the last axis -/

section Gather
variable {α : Type}

/-- The dimension numbers of a gather of an operand `[B, N]` along its last axis at start indices `[E, 1]`: result
    `[B, E]`, axis 0 an offset axis carrying the whole of operand axis 0, operand axis 1 collapsed and named by the
    start index map. -/
abbrev laneGather2 (B N E : Nat)
    (wf : GatherDims.WF ⟨2, ![B, N]⟩ ⟨2, ![E, 1]⟩ ⟨2, ![B, E]⟩ [0] [1] [] [1] [] 1 ![B, 1]) :
    GatherDims ⟨2, ![B, N]⟩ ⟨2, ![E, 1]⟩ ⟨2, ![B, E]⟩ where
  offsetDims := [0]
  collapsedSliceDims := [1]
  operandBatchingDims := []
  startIndicesBatchingDims := []
  startIndexMap := [1]
  indexVectorDim := 1
  sliceSizes := ![B, 1]
  wf := wf

/-- THE RANK-2 GATHER READ AT `(b, e)`: the operand at `(b, k)`, `k` the start index `idx[e, 0]` read signed and
    clamped into `[0, N − 1]`. -/
theorem laneGather2_apply {B N E w : Nat} (hN : 0 < N)
    (wf : GatherDims.WF ⟨2, ![B, N]⟩ ⟨2, ![E, 1]⟩ ⟨2, ![B, E]⟩ [0] [1] [] [1] [] 1 ![B, 1])
    (x : (⟨2, ![B, N]⟩ : Shape).Idx → α) (idx : IVec ⟨2, ![E, 1]⟩ w) (b : Fin B) (e : Fin E) :
    Host.gather (laneGather2 B N E wf) x idx (ix2 b e)
      = x (ix2 b ⟨min (idx (ix2 e 0)).toInt.toNat (N - 1), by omega⟩) := by
  unfold Host.gather
  congr 1
  funext a
  refine Fin.ext ?_
  show (laneGather2 B N E wf).start (ix2 b e) idx a + (laneGather2 B N E wf).batchCoord (ix2 b e) a
    + (laneGather2 B N E wf).offCoord (ix2 b e) a = _
  rw [GatherDims.batchCoord_eq_zero _ _ _ List.not_mem_nil]
  match a with
  | ⟨0, _⟩ =>
    -- axis 0: not in the start index map, an offset axis reading the result's coordinate 0
    have hs : (laneGather2 B N E wf).start (ix2 b e) idx ⟨0, by omega⟩ = 0 := by
      unfold GatherDims.start
      rw [dif_neg (fun h => absurd (congrArg Fin.val (List.mem_singleton.mp h)) Nat.zero_ne_one)]
    have ho : (laneGather2 B N E wf).offCoord (ix2 b e) ⟨0, by omega⟩ = b.val := by
      unfold GatherDims.offCoord
      rw [dif_pos ((GatherDims.mem_sKept _ _).mpr ⟨fun h => absurd (congrArg Fin.val (List.mem_singleton.mp h)) Nat.zero_ne_one, List.not_mem_nil⟩)]
      rfl
    rw [hs, ho]
    simp
  | ⟨1, _⟩ =>
    -- axis 1: collapsed, its start the clamped start index
    have ho : (laneGather2 B N E wf).offCoord (ix2 b e) ⟨1, by omega⟩ = 0 :=
      GatherDims.offCoord_eq_zero _ _ _ (fun h => ((GatherDims.mem_sKept _ _).mp h).1 (List.mem_singleton.mpr rfl))
    rw [ho]
    simp only [Nat.add_zero]
    unfold GatherDims.start
    rw [dif_pos (show (⟨1, by omega⟩ : Fin 2) ∈ (laneGather2 B N E wf).startIndexMap from List.mem_singleton.mpr rfl)]
    have hsi : (laneGather2 B N E wf).siIdx (ix2 b e) ⟨List.idxOf (⟨1, by omega⟩ : Fin 2) (laneGather2 B N E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl

/-- The dimension numbers of a gather of an operand `[B, T, N]` along its last axis at start indices `[E, 1]`:
    result `[B, T, E]`, axes 0 and 1 offset axes carrying the whole of operand axes 0 and 1, operand axis 2 collapsed
    and named by the start index map. -/
abbrev laneGather3 (B T N E : Nat)
    (wf : GatherDims.WF ⟨3, ![B, T, N]⟩ ⟨2, ![E, 1]⟩ ⟨3, ![B, T, E]⟩ [0, 1] [2] [] [2] [] 1 ![B, T, 1]) :
    GatherDims ⟨3, ![B, T, N]⟩ ⟨2, ![E, 1]⟩ ⟨3, ![B, T, E]⟩ where
  offsetDims := [0, 1]
  collapsedSliceDims := [2]
  operandBatchingDims := []
  startIndicesBatchingDims := []
  startIndexMap := [2]
  indexVectorDim := 1
  sliceSizes := ![B, T, 1]
  wf := wf

/-- THE RANK-3 GATHER READ AT `(b, t, e)`: the operand at `(b, t, k)`, `k` the start index `idx[e, 0]` read signed
    and clamped into `[0, N − 1]`. -/
theorem laneGather3_apply {B T N E w : Nat} (hN : 0 < N)
    (wf : GatherDims.WF ⟨3, ![B, T, N]⟩ ⟨2, ![E, 1]⟩ ⟨3, ![B, T, E]⟩ [0, 1] [2] [] [2] [] 1 ![B, T, 1])
    (x : (⟨3, ![B, T, N]⟩ : Shape).Idx → α) (idx : IVec ⟨2, ![E, 1]⟩ w) (b : Fin B) (t : Fin T) (e : Fin E) :
    Host.gather (laneGather3 B T N E wf) x idx (ix3 b t e)
      = x (ix3 b t ⟨min (idx (ix2 e 0)).toInt.toNat (N - 1), by omega⟩) := by
  unfold Host.gather
  congr 1
  funext a
  refine Fin.ext ?_
  show (laneGather3 B T N E wf).start (ix3 b t e) idx a + (laneGather3 B T N E wf).batchCoord (ix3 b t e) a
    + (laneGather3 B T N E wf).offCoord (ix3 b t e) a = _
  rw [GatherDims.batchCoord_eq_zero _ _ _ List.not_mem_nil]
  match a with
  | ⟨0, _⟩ =>
    -- axis 0: not in the start index map, an offset axis reading the result's coordinate 0
    have hs : (laneGather3 B T N E wf).start (ix3 b t e) idx ⟨0, by omega⟩ = 0 := by
      unfold GatherDims.start
      rw [dif_neg (fun h => absurd (congrArg Fin.val (List.mem_singleton.mp h)) (show (0 : Nat) ≠ 2 by decide))]
    have ho : (laneGather3 B T N E wf).offCoord (ix3 b t e) ⟨0, by omega⟩ = b.val := by
      unfold GatherDims.offCoord
      rw [dif_pos ((GatherDims.mem_sKept _ _).mpr
        ⟨fun h => absurd (congrArg Fin.val (List.mem_singleton.mp h)) (show (0 : Nat) ≠ 2 by decide), List.not_mem_nil⟩)]
      rfl
    rw [hs, ho]
    simp
  | ⟨1, _⟩ =>
    -- axis 1: not in the start index map, an offset axis reading the result's coordinate 1
    have hs : (laneGather3 B T N E wf).start (ix3 b t e) idx ⟨1, by omega⟩ = 0 := by
      unfold GatherDims.start
      rw [dif_neg (fun h => absurd (congrArg Fin.val (List.mem_singleton.mp h)) (show (1 : Nat) ≠ 2 by decide))]
    have ho : (laneGather3 B T N E wf).offCoord (ix3 b t e) ⟨1, by omega⟩ = t.val := by
      unfold GatherDims.offCoord
      rw [dif_pos ((GatherDims.mem_sKept _ _).mpr
        ⟨fun h => absurd (congrArg Fin.val (List.mem_singleton.mp h)) (show (1 : Nat) ≠ 2 by decide), List.not_mem_nil⟩)]
      rfl
    rw [hs, ho]
    simp
  | ⟨2, _⟩ =>
    -- axis 2: collapsed, its start the clamped start index
    have ho : (laneGather3 B T N E wf).offCoord (ix3 b t e) ⟨2, by omega⟩ = 0 :=
      GatherDims.offCoord_eq_zero _ _ _ (fun h => ((GatherDims.mem_sKept _ _).mp h).1 (List.mem_singleton.mpr rfl))
    rw [ho]
    simp only [Nat.add_zero]
    unfold GatherDims.start
    rw [dif_pos (show (⟨2, by omega⟩ : Fin 3) ∈ (laneGather3 B T N E wf).startIndexMap from List.mem_singleton.mpr rfl)]
    have hsi : (laneGather3 B T N E wf).siIdx (ix3 b t e) ⟨List.idxOf (⟨2, by omega⟩ : Fin 3) (laneGather3 B T N E wf).startIndexMap,
        List.idxOf_lt_length_iff.2 (List.mem_singleton.mpr rfl)⟩ = ix2 e 0 := by
      funext c; refine Fin.ext ?_
      match c with
      | ⟨0, _⟩ => rfl
      | ⟨1, _⟩ => rfl
    rw [hsi]
    rfl

end Gather

/-! ## Scatter-add along the last axis -/

section Scatter

/-- The dimension numbers of a scatter into an operand `[B, N]` along its last axis at scatter indices `[E, 1]`:
    updates `[B, E]`, update axis 0 a window axis going to operand axis 0, operand axis 1 an inserted window axis
    named by the scatter-dims-to-operand-dims map. -/
abbrev laneScatter2 (B N E : Nat)
    (wf : ScatterDims.WF ⟨2, ![B, N]⟩ ⟨2, ![E, 1]⟩ ⟨2, ![B, E]⟩ [0] [1] [1] 1) :
    ScatterDims ⟨2, ![B, N]⟩ ⟨2, ![E, 1]⟩ ⟨2, ![B, E]⟩ where
  updateWindowDims := [0]
  insertedWindowDims := [1]
  scatterDimsToOperandDims := [1]
  indexVectorDim := 1
  wf := wf

/-- An operand axis is kept exactly when it is not an inserted window axis. -/
theorem scatter_mem_sKept {s si u : Shape} (d : ScatterDims s si u) (a : Fin s.rank) :
    a ∈ d.sKept ↔ a ∉ d.insertedWindowDims := by
  simp [ScatterDims.sKept, Shape.kept, List.mem_filter, List.mem_finRange]

section Rank2
variable {B N E w : Nat} (wf : ScatterDims.WF ⟨2, ![B, N]⟩ ⟨2, ![E, 1]⟩ ⟨2, ![B, E]⟩ [0] [1] [1] 1)
  (idx : IVec ⟨2, ![E, 1]⟩ w) (b' : Fin B) (e : Fin E)

/-- Operand axis 0 is not named by the map: its start is `0`. -/
theorem laneScatter2_start0 : (laneScatter2 B N E wf).start (ix2 b' e) idx ⟨0, show 0 < 2 by omega⟩ = 0 := by
  unfold ScatterDims.start
  rw [dif_neg (fun h => absurd (congrArg Fin.val (List.mem_singleton.mp h)) Nat.zero_ne_one)]

/-- Operand axis 0 is a kept axis: its window coordinate is the update's coordinate 0. -/
theorem laneScatter2_window0 : (laneScatter2 B N E wf).window (ix2 b' e) ⟨0, show 0 < 2 by omega⟩ = b'.val := by
  unfold ScatterDims.window
  rw [dif_pos ((scatter_mem_sKept _ _).mpr
    (fun h => absurd (congrArg Fin.val (List.mem_singleton.mp h)) Nat.zero_ne_one))]
  rfl

/-- Operand axis 1 is named by the map: its start is the scatter index `idx[e, 0]` read signed. -/
theorem laneScatter2_start1 :
    (laneScatter2 B N E wf).start (ix2 b' e) idx ⟨1, show 1 < 2 by omega⟩ = (idx (ix2 e 0)).toInt := by
  unfold ScatterDims.start
  rw [dif_pos (show (⟨1, show 1 < 2 by omega⟩ : Fin 2) ∈ (laneScatter2 B N E wf).scatterDimsToOperandDims from
    List.mem_singleton.mpr rfl)]
  have hsi : (laneScatter2 B N E wf).siIdx (ix2 b' e)
      ⟨List.idxOf (⟨1, show 1 < 2 by omega⟩ : Fin 2) (laneScatter2 B N E wf).scatterDimsToOperandDims,
        List.idxOf_lt_length_iff.2 (List.mem_singleton.mpr rfl)⟩ = ix2 e 0 := by
    funext c; refine Fin.ext ?_
    match c with
    | ⟨0, _⟩ => rfl
    | ⟨1, _⟩ => rfl
  rw [hsi]

/-- Operand axis 1 is an inserted window axis: its window coordinate is `0`. -/
theorem laneScatter2_window1 : (laneScatter2 B N E wf).window (ix2 b' e) ⟨1, show 1 < 2 by omega⟩ = 0 := by
  unfold ScatterDims.window
  rw [dif_neg (fun h => (scatter_mem_sKept _ _).mp h (List.mem_singleton.mpr rfl))]

/-- WHERE AN UPDATE LANDS: update `(b', e)` lands at operand element `(b, n)` exactly when `b' = b` and the scatter
    index `idx[e, 0]`, read signed, is `n`. -/
theorem laneScatter2_resultIdx?_eq_some (b : Fin B) (n : Fin N) :
    (laneScatter2 B N E wf).resultIdx? (ix2 b' e) idx = some (ix2 b n)
      ↔ b' = b ∧ (idx (ix2 e 0)).toInt = (n.val : Int) := by
  have hs0 := laneScatter2_start0 wf idx b' e
  have hw0 := laneScatter2_window0 wf b' e
  have hs1 := laneScatter2_start1 wf idx b' e
  have hw1 := laneScatter2_window1 wf b' e
  have hb' := b'.isLt
  have hb := b.isLt
  have hn := n.isLt
  unfold ScatterDims.resultIdx?
  split
  · rename_i h
    rw [Option.some.injEq]
    constructor
    · intro hf
      have h0 := congrArg Fin.val (congrFun hf ⟨0, show 0 < 2 by omega⟩)
      have h1 := congrArg Fin.val (congrFun hf ⟨1, show 1 < 2 by omega⟩)
      have g1 := (h ⟨1, show 1 < 2 by omega⟩).1
      simp only [hs0, hw0, hs1, hw1] at h0 h1 g1
      change (0 + (b'.val : Int)).toNat = b.val at h0
      change ((idx (ix2 e 0)).toInt + ((0 : Nat) : Int)).toNat = n.val at h1
      exact ⟨Fin.ext (by omega), by omega⟩
    · rintro ⟨rfl, hi⟩
      funext a
      refine Fin.ext ?_
      match a with
      | ⟨0, _⟩ =>
        show ((laneScatter2 B N E wf).start (ix2 b' e) idx ⟨0, show 0 < 2 by omega⟩
          + ((laneScatter2 B N E wf).window (ix2 b' e) ⟨0, show 0 < 2 by omega⟩ : Nat)).toNat = b'.val
        rw [hs0, hw0]; omega
      | ⟨1, _⟩ =>
        show ((laneScatter2 B N E wf).start (ix2 b' e) idx ⟨1, show 1 < 2 by omega⟩
          + ((laneScatter2 B N E wf).window (ix2 b' e) ⟨1, show 1 < 2 by omega⟩ : Nat)).toNat = n.val
        rw [hs1, hw1]; omega
  · rename_i h
    constructor
    · intro hf; cases hf
    · rintro ⟨rfl, hi⟩
      exfalso; apply h
      intro a
      match a with
      | ⟨0, _⟩ =>
        rw [hs0, hw0]
        show (0 : Int) ≤ 0 + (b'.val : Int) ∧ 0 + (b'.val : Int) < ((B : Nat) : Int)
        omega
      | ⟨1, _⟩ =>
        rw [hs1, hw1, hi]
        show (0 : Int) ≤ (n.val : Int) + ((0 : Nat) : Int) ∧ (n.val : Int) + ((0 : Nat) : Int) < ((N : Nat) : Int)
        omega

end Rank2

/-- THE RANK-2 SCATTER-ADD READ AT `(b, n)`: the operand's element plus the sum of the updates `(b, e)` over the
    `e` whose scatter index `idx[e, 0]`, read signed, is `n`. -/
theorem laneScatterAdd2_apply {B N E w : Nat}
    (wf : ScatterDims.WF ⟨2, ![B, N]⟩ ⟨2, ![E, 1]⟩ ⟨2, ![B, E]⟩ [0] [1] [1] 1)
    (x : (⟨2, ![B, N]⟩ : Shape).Idx → EReal) (idx : IVec ⟨2, ![E, 1]⟩ w)
    (upd : (⟨2, ![B, E]⟩ : Shape).Idx → EReal) (b : Fin B) (n : Fin N) :
    Ideal.hostScatterAdd (laneScatter2 B N E wf) x idx upd (ix2 b n)
      = x (ix2 b n) + ∑ e : Fin E, if (idx (ix2 e 0)).toInt = (n.val : Int) then upd (ix2 b e) else 0 := by
  unfold Ideal.hostScatterAdd
  show _ + _ = _ + _
  congr 1
  rw [Finset.sum_filter, sum_idx2]
  simp only [laneScatter2_resultIdx?_eq_some]
  rw [Fintype.sum_eq_single b (fun b' hb' => Finset.sum_eq_zero fun e _ => if_neg fun h => hb' h.1)]
  refine Finset.sum_congr rfl fun e _ => ?_
  simp only [true_and]

/-- The dimension numbers of a scatter into an operand `[B, T, N]` along its last axis at scatter indices `[E, 1]`:
    updates `[B, T, E]`, update axes 0 and 1 window axes going to operand axes 0 and 1, operand axis 2 an inserted
    window axis named by the scatter-dims-to-operand-dims map. -/
abbrev laneScatter3 (B T N E : Nat)
    (wf : ScatterDims.WF ⟨3, ![B, T, N]⟩ ⟨2, ![E, 1]⟩ ⟨3, ![B, T, E]⟩ [0, 1] [2] [2] 1) :
    ScatterDims ⟨3, ![B, T, N]⟩ ⟨2, ![E, 1]⟩ ⟨3, ![B, T, E]⟩ where
  updateWindowDims := [0, 1]
  insertedWindowDims := [2]
  scatterDimsToOperandDims := [2]
  indexVectorDim := 1
  wf := wf

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Rank3
variable {B T N E w : Nat} (wf : ScatterDims.WF ⟨3, ![B, T, N]⟩ ⟨2, ![E, 1]⟩ ⟨3, ![B, T, E]⟩ [0, 1] [2] [2] 1)
  (idx : IVec ⟨2, ![E, 1]⟩ w) (b' : Fin B) (t' : Fin T) (e : Fin E)

/-- Operand axis 0 is not named by the map: its start is `0`. -/
theorem laneScatter3_start0 : (laneScatter3 B T N E wf).start (ix3 b' t' e) idx ⟨0, show 0 < 3 by omega⟩ = 0 := by
  unfold ScatterDims.start
  rw [dif_neg (fun h => absurd (congrArg Fin.val (List.mem_singleton.mp h)) (show (0 : Nat) ≠ 2 by decide))]

/-- Operand axis 1 is not named by the map: its start is `0`. -/
theorem laneScatter3_start1 : (laneScatter3 B T N E wf).start (ix3 b' t' e) idx ⟨1, show 1 < 3 by omega⟩ = 0 := by
  unfold ScatterDims.start
  rw [dif_neg (fun h => absurd (congrArg Fin.val (List.mem_singleton.mp h)) (show (1 : Nat) ≠ 2 by decide))]

/-- Operand axis 0 is a kept axis: its window coordinate is the update's coordinate 0. -/
theorem laneScatter3_window0 : (laneScatter3 B T N E wf).window (ix3 b' t' e) ⟨0, show 0 < 3 by omega⟩ = b'.val := by
  unfold ScatterDims.window
  rw [dif_pos ((scatter_mem_sKept _ _).mpr
    (fun h => absurd (congrArg Fin.val (List.mem_singleton.mp h)) (show (0 : Nat) ≠ 2 by decide)))]
  rfl

/-- Operand axis 1 is a kept axis: its window coordinate is the update's coordinate 1. -/
theorem laneScatter3_window1 : (laneScatter3 B T N E wf).window (ix3 b' t' e) ⟨1, show 1 < 3 by omega⟩ = t'.val := by
  unfold ScatterDims.window
  rw [dif_pos ((scatter_mem_sKept _ _).mpr
    (fun h => absurd (congrArg Fin.val (List.mem_singleton.mp h)) (show (1 : Nat) ≠ 2 by decide)))]
  rfl

/-- Operand axis 2 is named by the map: its start is the scatter index `idx[e, 0]` read signed. -/
theorem laneScatter3_start2 :
    (laneScatter3 B T N E wf).start (ix3 b' t' e) idx ⟨2, show 2 < 3 by omega⟩ = (idx (ix2 e 0)).toInt := by
  unfold ScatterDims.start
  rw [dif_pos (show (⟨2, show 2 < 3 by omega⟩ : Fin 3) ∈ (laneScatter3 B T N E wf).scatterDimsToOperandDims from
    List.mem_singleton.mpr rfl)]
  have hsi : (laneScatter3 B T N E wf).siIdx (ix3 b' t' e)
      ⟨List.idxOf (⟨2, show 2 < 3 by omega⟩ : Fin 3) (laneScatter3 B T N E wf).scatterDimsToOperandDims,
        List.idxOf_lt_length_iff.2 (List.mem_singleton.mpr rfl)⟩ = ix2 e 0 := by
    funext c; refine Fin.ext ?_
    match c with
    | ⟨0, _⟩ => rfl
    | ⟨1, _⟩ => rfl
  rw [hsi]

/-- Operand axis 2 is an inserted window axis: its window coordinate is `0`. -/
theorem laneScatter3_window2 : (laneScatter3 B T N E wf).window (ix3 b' t' e) ⟨2, show 2 < 3 by omega⟩ = 0 := by
  unfold ScatterDims.window
  rw [dif_neg (fun h => (scatter_mem_sKept _ _).mp h (List.mem_singleton.mpr rfl))]

/-- WHERE AN UPDATE LANDS: update `(b', t', e)` lands at operand element `(b, t, n)` exactly when `b' = b`,
    `t' = t` and the scatter index `idx[e, 0]`, read signed, is `n`. -/
theorem laneScatter3_resultIdx?_eq_some (b : Fin B) (t : Fin T) (n : Fin N) :
    (laneScatter3 B T N E wf).resultIdx? (ix3 b' t' e) idx = some (ix3 b t n)
      ↔ b' = b ∧ t' = t ∧ (idx (ix2 e 0)).toInt = (n.val : Int) := by
  have hs0 := laneScatter3_start0 wf idx b' t' e
  have hw0 := laneScatter3_window0 wf b' t' e
  have hs1 := laneScatter3_start1 wf idx b' t' e
  have hw1 := laneScatter3_window1 wf b' t' e
  have hs2 := laneScatter3_start2 wf idx b' t' e
  have hw2 := laneScatter3_window2 wf b' t' e
  have hb' := b'.isLt
  have ht' := t'.isLt
  have hb := b.isLt
  have ht := t.isLt
  have hn := n.isLt
  unfold ScatterDims.resultIdx?
  split
  · rename_i h
    rw [Option.some.injEq]
    constructor
    · intro hf
      have h0 := congrArg Fin.val (congrFun hf ⟨0, show 0 < 3 by omega⟩)
      have h1 := congrArg Fin.val (congrFun hf ⟨1, show 1 < 3 by omega⟩)
      have h2 := congrArg Fin.val (congrFun hf ⟨2, show 2 < 3 by omega⟩)
      have g2 := (h ⟨2, show 2 < 3 by omega⟩).1
      simp only [hs0, hw0, hs1, hw1, hs2, hw2] at h0 h1 h2 g2
      change (0 + (b'.val : Int)).toNat = b.val at h0
      change (0 + (t'.val : Int)).toNat = t.val at h1
      change ((idx (ix2 e 0)).toInt + ((0 : Nat) : Int)).toNat = n.val at h2
      exact ⟨Fin.ext (by omega), Fin.ext (by omega), by omega⟩
    · rintro ⟨rfl, rfl, hi⟩
      funext a
      refine Fin.ext ?_
      match a with
      | ⟨0, _⟩ =>
        show ((laneScatter3 B T N E wf).start (ix3 b' t' e) idx ⟨0, show 0 < 3 by omega⟩
          + ((laneScatter3 B T N E wf).window (ix3 b' t' e) ⟨0, show 0 < 3 by omega⟩ : Nat)).toNat = b'.val
        rw [hs0, hw0]; omega
      | ⟨1, _⟩ =>
        show ((laneScatter3 B T N E wf).start (ix3 b' t' e) idx ⟨1, show 1 < 3 by omega⟩
          + ((laneScatter3 B T N E wf).window (ix3 b' t' e) ⟨1, show 1 < 3 by omega⟩ : Nat)).toNat = t'.val
        rw [hs1, hw1]; omega
      | ⟨2, _⟩ =>
        show ((laneScatter3 B T N E wf).start (ix3 b' t' e) idx ⟨2, show 2 < 3 by omega⟩
          + ((laneScatter3 B T N E wf).window (ix3 b' t' e) ⟨2, show 2 < 3 by omega⟩ : Nat)).toNat = n.val
        rw [hs2, hw2]; omega
  · rename_i h
    constructor
    · intro hf; cases hf
    · rintro ⟨rfl, rfl, hi⟩
      exfalso; apply h
      intro a
      match a with
      | ⟨0, _⟩ =>
        rw [hs0, hw0]
        show (0 : Int) ≤ 0 + (b'.val : Int) ∧ 0 + (b'.val : Int) < ((B : Nat) : Int)
        omega
      | ⟨1, _⟩ =>
        rw [hs1, hw1]
        show (0 : Int) ≤ 0 + (t'.val : Int) ∧ 0 + (t'.val : Int) < ((T : Nat) : Int)
        omega
      | ⟨2, _⟩ =>
        rw [hs2, hw2, hi]
        show (0 : Int) ≤ (n.val : Int) + ((0 : Nat) : Int) ∧ (n.val : Int) + ((0 : Nat) : Int) < ((N : Nat) : Int)
        omega

end Rank3

/-- THE RANK-3 SCATTER-ADD READ AT `(b, t, n)`: the operand's element plus the sum of the updates `(b, t, e)` over
    the `e` whose scatter index `idx[e, 0]`, read signed, is `n`. -/
theorem laneScatterAdd3_apply {B T N E w : Nat}
    (wf : ScatterDims.WF ⟨3, ![B, T, N]⟩ ⟨2, ![E, 1]⟩ ⟨3, ![B, T, E]⟩ [0, 1] [2] [2] 1)
    (x : (⟨3, ![B, T, N]⟩ : Shape).Idx → EReal) (idx : IVec ⟨2, ![E, 1]⟩ w)
    (upd : (⟨3, ![B, T, E]⟩ : Shape).Idx → EReal) (b : Fin B) (t : Fin T) (n : Fin N) :
    Ideal.hostScatterAdd (laneScatter3 B T N E wf) x idx upd (ix3 b t n)
      = x (ix3 b t n) + ∑ e : Fin E, if (idx (ix2 e 0)).toInt = (n.val : Int) then upd (ix3 b t e) else 0 := by
  unfold Ideal.hostScatterAdd
  show _ + _ = _ + _
  congr 1
  rw [Finset.sum_filter, sum_idx3]
  simp only [laneScatter3_resultIdx?_eq_some]
  rw [Fintype.sum_eq_single b (fun b' hb' => Finset.sum_eq_zero fun t' _ => Finset.sum_eq_zero fun e _ =>
      if_neg fun h => hb' h.1),
    Fintype.sum_eq_single t (fun t' ht' => Finset.sum_eq_zero fun e _ => if_neg fun h => ht' h.2.1)]
  refine Finset.sum_congr rfl fun e _ => ?_
  simp only [true_and]

end Scatter

/-! ## The last-axis gather–multiply–scatter step commutes with fixing the middle coordinate -/

section Slice

/-- Gather along the last axis at `S`, multiply by the updates' weights, scatter-add along the last axis at `D`: the
    rank-3 step read at `(b, t0, n)` is the rank-2 step, on the slices at middle coordinate `t0`, read at `(b, n)`. -/
theorem laneGraph_slice {B T N E w : Nat} (hN : 0 < N)
    (wg2 : GatherDims.WF ⟨2, ![B, N]⟩ ⟨2, ![E, 1]⟩ ⟨2, ![B, E]⟩ [0] [1] [] [1] [] 1 ![B, 1])
    (wg3 : GatherDims.WF ⟨3, ![B, T, N]⟩ ⟨2, ![E, 1]⟩ ⟨3, ![B, T, E]⟩ [0, 1] [2] [] [2] [] 1 ![B, T, 1])
    (ws2 : ScatterDims.WF ⟨2, ![B, N]⟩ ⟨2, ![E, 1]⟩ ⟨2, ![B, E]⟩ [0] [1] [1] 1)
    (ws3 : ScatterDims.WF ⟨3, ![B, T, N]⟩ ⟨2, ![E, 1]⟩ ⟨3, ![B, T, E]⟩ [0, 1] [2] [2] 1)
    (t0 : Fin T) (X2 Z2 : (⟨2, ![B, N]⟩ : Shape).Idx → EReal) (X3 Z3 : (⟨3, ![B, T, N]⟩ : Shape).Idx → EReal)
    (U2 : (⟨2, ![B, E]⟩ : Shape).Idx → EReal) (U3 : (⟨3, ![B, T, E]⟩ : Shape).Idx → EReal)
    (S D : IVec ⟨2, ![E, 1]⟩ w)
    (hX : ∀ b n, X2 (ix2 b n) = X3 (ix3 b t0 n)) (hZ : ∀ b n, Z2 (ix2 b n) = Z3 (ix3 b t0 n))
    (hU : ∀ b e, U2 (ix2 b e) = U3 (ix3 b t0 e)) (b : Fin B) (n : Fin N) :
    Ideal.hostScatterAdd (laneScatter2 B N E ws2) Z2 D
        (fun j => Host.gather (laneGather2 B N E wg2) X2 S j * U2 j) (ix2 b n)
      = Ideal.hostScatterAdd (laneScatter3 B T N E ws3) Z3 D
        (fun j => Host.gather (laneGather3 B T N E wg3) X3 S j * U3 j) (ix3 b t0 n) := by
  rw [laneScatterAdd2_apply, laneScatterAdd3_apply, hZ]
  congr 1
  refine Finset.sum_congr rfl fun e _ => ?_
  beta_reduce
  rw [laneGather2_apply hN, laneGather3_apply hN, hX, hU]

end Slice

end Cert.LibLaneScatter

end
-- ==== Proof.GraphBridge.lean ====
/-
  The Laplacian feature of the last timestep is the last timestep of the Laplacian feature.

  Both programs compute the edge sources, the edge targets and the edge weights by the same host operations of the
  edge list. The kernel's host code then gathers the LAST timestep's node features [8,50000] at the sources, scales them
  by the edge weights and scatter-adds them from zero at the targets; the reference does the same to ALL timesteps
  [8,6,50000] along the node axis. Gathering, scaling and scatter-adding along the last axis act on each leading
  coordinate separately, so the kernel's array at (b,n) is the reference's at (b,5,n).
-/
import proofs.«172272_j9809705304183_2_alg».proof.Proof.GraphStages
import proofs.«172272_j9809705304183_2_alg».proof.Proof.LibLaneScatter
import Idealize.ShloMosaic.PureOps.Ideal

set_option maxRecDepth 16384

noncomputable section

namespace Cert.KernelIdeal.Graph

open Cert.KernelIdeal Cert.KernelIdeal.Gen Idealize.ShloMosaic Idealize.ShloMosaic.TcCoe Idealize.SL.Sem
open Idealize.ShloMosaic.Tactic Idealize.ShloMosaic.StableHlo Idealize.ShloMosaic.ValueIdx

variable (m : (ℓ : Loc nD τ sig) → Buf (Elt Ideal) ℓ)

/-! ## Layouts read at an index -/

section Layout
variable {α : Type}

/-- An edge vector repeated over the 8 rows, at (b,e). -/
theorem rows2_apply (w : S1600000.Idx → α) (h1 : S1600000.BroadcastsInDim S1x1600000 ![1])
    (h2 : S1x1600000.BroadcastsInDim S8x1600000 ![0, 1]) (b : Fin 8) (e : Fin 1600000) :
    broadcastInDim S8x1600000 ![0, 1] h2 (broadcastInDim S1x1600000 ![1] h1 w) (ix2 b e) = w (ix1 e) := by
  rw [broadcastInDim_apply _ h2 _ (ix2 b e) (ix2 (0 : Fin 1) e) (fun a => by
    match a with
    | ⟨0, _⟩ => rfl
    | ⟨1, _⟩ => rfl)]
  exact broadcastInDim_apply _ h1 w (ix2 (0 : Fin 1) e) (ix1 e) (fun a => by
    match a with
    | ⟨0, _⟩ => rfl)

/-- An edge vector repeated over the 8 rows and 6 timesteps, at (b,t,e). -/
theorem rows3_apply (w : Cert.ReferenceIdeal.S1600000.Idx → α)
    (h1 : Cert.ReferenceIdeal.S1600000.BroadcastsInDim Cert.ReferenceIdeal.S1x1x1600000 ![2])
    (h2 : Cert.ReferenceIdeal.S1x1x1600000.BroadcastsInDim Cert.ReferenceIdeal.S8x6x1600000 ![0, 1, 2])
    (b : Fin 8) (t : Fin 6) (e : Fin 1600000) :
    broadcastInDim Cert.ReferenceIdeal.S8x6x1600000 ![0, 1, 2] h2
      (broadcastInDim Cert.ReferenceIdeal.S1x1x1600000 ![2] h1 w) (ix3 b t e) = w (ix1 e) := by
  rw [broadcastInDim_apply _ h2 _ (ix3 b t e) (ix3 (0 : Fin 1) (0 : Fin 1) e) (fun a => by
    match a with
    | ⟨0, _⟩ => rfl
    | ⟨1, _⟩ => rfl
    | ⟨2, _⟩ => rfl)]
  exact broadcastInDim_apply _ h1 w (ix3 (0 : Fin 1) (0 : Fin 1) e) (ix1 e) (fun a => by
    match a with
    | ⟨0, _⟩ => rfl)

/-- All timesteps of the node features, laid out [8,6,50000], at (b,t,n). -/
theorem steps_apply (x : Cert.ReferenceIdeal.S8x6x50000x1.Idx → α)
    (h : Cert.ReferenceIdeal.S8x6x50000x1.ShapeCasts Cert.ReferenceIdeal.S8x6x50000) (b : Fin 8) (t : Fin 6) (n : Fin 50000) :
    shapeCast Cert.ReferenceIdeal.S8x6x50000 x h (ix3 b t n) = x (ix4 b t n (0 : Fin 1)) :=
  shapeCast_apply x h (ix3 b t n) (ix4 b t n (0 : Fin 1)) (by
    rw [Shape.rowMajor_val_three, Shape.rowMajor_val_four]
    show ((b.val * 6 + t.val) * 50000 + n.val) * 1 + 0 = (b.val * 6 + t.val) * 50000 + n.val
    omega)

end Layout

/-! ## The two Laplacian features, entry by entry -/

/-- A zero array [8,50000] at an entry. -/
theorem zerosK_apply (b : Fin 8) (n : Fin 50000) :
    broadcastInDim S8x50000 ![] bcast_S_S8x50000 (constant (F := Ideal) S_ .f32 0x00000000#32) (ix2 b n)
      = Ideal.ofBits .f32 0x00000000#32 := by
  rw [broadcastInDim_apply _ bcast_S_S8x50000 _ (ix2 b n) ix0 (fun a => a.elim0)]
  rfl

/-- A zero array [8,6,50000] at an entry. -/
theorem zerosR_apply (b : Fin 8) (t : Fin 6) (n : Fin 50000) :
    Cert.ReferenceIdeal.ReadP.val_main_v38 (F := Ideal) (ix3 b t n) = Ideal.ofBits .f32 0x00000000#32 := by
  unfold Cert.ReferenceIdeal.ReadP.val_main_v38 Cert.ReferenceIdeal.ReadP.val_main_cst_10
  rw [broadcastInDim_apply _ Cert.ReferenceIdeal.Gen.bcast_S_S8x6x50000 _ (ix3 b t n) ix0 (fun a => a.elim0)]
  rfl

/-- The kernel's Laplacian feature as one scatter-add over the extended reals, its updates the gathered features times
    the repeated edge weights. -/
theorem laplacianK_form (X : S8x50000.Idx → EReal) (S D : IVec S1600000x1 32) (W : S1600000.Idx → EReal) :
    Prefix.laplacian (F := Ideal) X S D W
      = Ideal.hostScatterAdd (Cert.LibLaneScatter.laneScatter2 8 50000 1600000 scatter_S8x50000_S1600000x1_S8x1600000_0_1_1_1_wf)
          (broadcastInDim S8x50000 ![] bcast_S_S8x50000 (constant (F := Ideal) S_ .f32 0x00000000#32)) D
          (fun j => Host.gather (Cert.LibLaneScatter.laneGather2 8 50000 1600000 gather_S8x50000_S1600000x1_S8x1600000_0_1_n_n_1_1_81_wf) X S j
            * broadcastInDim S8x1600000 ![0, 1] bcast_S1x1600000_S8x1600000_0_1
                (broadcastInDim S1x1600000 ![1] bcast_S1600000_S1x1600000_1 W) j) := by
  dsimp only [Prefix.laplacian]
  unfold Host.scatterAdd
  rw [Ideal.hostScatterAdd_def, show scatter_S8x50000_S1600000x1_S8x1600000_0_1_1_1 = Cert.LibLaneScatter.laneScatter2 8 50000 1600000 scatter_S8x50000_S1600000x1_S8x1600000_0_1_1_1_wf from rfl,
    show gather_S8x50000_S1600000x1_S8x1600000_0_1_n_n_1_1_81 = Cert.LibLaneScatter.laneGather2 8 50000 1600000 gather_S8x50000_S1600000x1_S8x1600000_0_1_n_n_1_1_81_wf from rfl]
  rfl

/-- The reference's Laplacian feature as one scatter-add over the extended reals. -/
theorem laplacianR_form (X : Cert.ReferenceIdeal.S8x6x50000.Idx → EReal) (S D : IVec Cert.ReferenceIdeal.S1600000x1 32)
    (W : Cert.ReferenceIdeal.S1600000.Idx → EReal) :
    Host.scatterAdd (F := Ideal) (φ := .f32) Cert.ReferenceIdeal.scatter_S8x6x50000_S1600000x1_S8x6x1600000_01_2_2_1 (Cert.ReferenceIdeal.ReadP.val_main_v38 (F := Ideal)) D
        (mulf (F := Ideal) (φ := .f32) (Host.gather Cert.ReferenceIdeal.gather_S8x6x50000_S1600000x1_S8x6x1600000_01_2_n_n_2_1_861 X S)
          (broadcastInDim Cert.ReferenceIdeal.S8x6x1600000 ![0, 1, 2] Cert.ReferenceIdeal.Gen.bcast_S1x1x1600000_S8x6x1600000_0_1_2
            (broadcastInDim Cert.ReferenceIdeal.S1x1x1600000 ![2] Cert.ReferenceIdeal.Gen.bcast_S1600000_S1x1x1600000_2 W)))
      = Ideal.hostScatterAdd (Cert.LibLaneScatter.laneScatter3 8 6 50000 1600000 Cert.ReferenceIdeal.Gen.scatter_S8x6x50000_S1600000x1_S8x6x1600000_01_2_2_1_wf) (Cert.ReferenceIdeal.ReadP.val_main_v38 (F := Ideal)) D
          (fun j => Host.gather (Cert.LibLaneScatter.laneGather3 8 6 50000 1600000 Cert.ReferenceIdeal.Gen.gather_S8x6x50000_S1600000x1_S8x6x1600000_01_2_n_n_2_1_861_wf) X S j
            * broadcastInDim Cert.ReferenceIdeal.S8x6x1600000 ![0, 1, 2] Cert.ReferenceIdeal.Gen.bcast_S1x1x1600000_S8x6x1600000_0_1_2
                (broadcastInDim Cert.ReferenceIdeal.S1x1x1600000 ![2] Cert.ReferenceIdeal.Gen.bcast_S1600000_S1x1x1600000_2 W) j) := by
  unfold Host.scatterAdd
  rw [Ideal.hostScatterAdd_def, show Cert.ReferenceIdeal.scatter_S8x6x50000_S1600000x1_S8x6x1600000_01_2_2_1 = Cert.LibLaneScatter.laneScatter3 8 6 50000 1600000 Cert.ReferenceIdeal.Gen.scatter_S8x6x50000_S1600000x1_S8x6x1600000_01_2_2_1_wf from rfl,
    show Cert.ReferenceIdeal.gather_S8x6x50000_S1600000x1_S8x6x1600000_01_2_n_n_2_1_861 = Cert.LibLaneScatter.laneGather3 8 6 50000 1600000 Cert.ReferenceIdeal.Gen.gather_S8x6x50000_S1600000x1_S8x6x1600000_01_2_n_n_2_1_861_wf from rfl]
  rfl

/-- The kernel's Laplacian feature of node features `X`, edge sources `S`, targets `D` and weights `W`, at (b,n): from
    zero, the sum over the edges whose target is `n` of the feature at the edge's source (clamped into the nodes)
    times the edge's weight. -/
theorem laplacianK_apply (X : S8x50000.Idx → EReal) (S D : IVec S1600000x1 32) (W : S1600000.Idx → EReal)
    (b : Fin 8) (n : Fin 50000) :
    Prefix.laplacian (F := Ideal) X S D W (ix2 b n)
      = Ideal.ofBits .f32 0x00000000#32 + ∑ e : Fin 1600000, if (D (ix2 e 0)).toInt = (n.val : Int)
          then X (ix2 b (⟨min (S (ix2 e 0)).toInt.toNat (50000 - 1), by omega⟩ : Fin 50000)) * W (ix1 e) else 0 := by
  rw [laplacianK_form]
  refine (Cert.LibLaneScatter.laneScatterAdd2_apply (B := 8) (N := 50000) (E := 1600000) (w := 32) _ _ D _ b n).trans ?_
  refine congrArg₂ (· + ·) (zerosK_apply b n) (Finset.sum_congr rfl fun e _ => ?_)
  refine if_congr Iff.rfl ?_ rfl
  exact congrArg₂ (· * ·) (Cert.LibLaneScatter.laneGather2_apply (B := 8) (N := 50000) (E := 1600000) (w := 32) (by norm_num) _ X S b e)
    (rows2_apply W _ _ b e)

/-- The reference's Laplacian feature of all timesteps' node features `X`, at (b,t,n): the same sum at timestep `t`. -/
theorem laplacianR_apply (X : Cert.ReferenceIdeal.S8x6x50000.Idx → EReal) (S D : IVec Cert.ReferenceIdeal.S1600000x1 32)
    (W : Cert.ReferenceIdeal.S1600000.Idx → EReal) (b : Fin 8) (t : Fin 6) (n : Fin 50000) :
    Host.scatterAdd (F := Ideal) (φ := .f32) Cert.ReferenceIdeal.scatter_S8x6x50000_S1600000x1_S8x6x1600000_01_2_2_1 (Cert.ReferenceIdeal.ReadP.val_main_v38 (F := Ideal)) D
        (mulf (F := Ideal) (φ := .f32) (Host.gather Cert.ReferenceIdeal.gather_S8x6x50000_S1600000x1_S8x6x1600000_01_2_n_n_2_1_861 X S)
          (broadcastInDim Cert.ReferenceIdeal.S8x6x1600000 ![0, 1, 2] Cert.ReferenceIdeal.Gen.bcast_S1x1x1600000_S8x6x1600000_0_1_2
            (broadcastInDim Cert.ReferenceIdeal.S1x1x1600000 ![2] Cert.ReferenceIdeal.Gen.bcast_S1600000_S1x1x1600000_2 W))) (ix3 b t n)
      = Ideal.ofBits .f32 0x00000000#32 + ∑ e : Fin 1600000, if (D (ix2 e 0)).toInt = (n.val : Int)
          then X (ix3 b t (⟨min (S (ix2 e 0)).toInt.toNat (50000 - 1), by omega⟩ : Fin 50000)) * W (ix1 e) else 0 := by
  rw [laplacianR_form]
  refine (Cert.LibLaneScatter.laneScatterAdd3_apply (B := 8) (T := 6) (N := 50000) (E := 1600000) (w := 32) _ _ D _ b t n).trans ?_
  refine congrArg₂ (· + ·) (zerosR_apply b t n) (Finset.sum_congr rfl fun e _ => ?_)
  refine if_congr Iff.rfl ?_ rfl
  exact congrArg₂ (· * ·) (Cert.LibLaneScatter.laneGather3_apply (B := 8) (T := 6) (N := 50000) (E := 1600000) (w := 32) (by norm_num) _ X S b t e)
    (rows3_apply W _ _ b t e)

/-! ## The slice -/

/-- THE LAPLACIAN FEATURE the kernel's host code forms, at (b,n), is the reference's at (b,5,n): the same sum over the
    edges, the last timestep's node feature at (b,k) being the node features at (b,5,k,0) on both sides. -/
theorem laplacian_slice (c : Dev nD) (b : Fin 8) (n : Fin 50000) :
    (V m c main_v56 : (⟨S8x50000, .f32⟩ : BufTy).Contents (Elt Ideal)) (ix2 b n)
      = Cert.ReferenceIdeal.ReadP.val_main_v55 (F := Ideal) (m ((c : Thread nD τ).loc main_arg0)) (m ((c : Thread nD τ).loc main_arg1)) (ix3 b (5 : Fin 6) n) := by
  rw [Prefix.v56_eq m c, Prefix.v38_eq m c, src_eq m c, dst_eq m c, weight_eq m c]
  unfold Cert.ReferenceIdeal.ReadP.val_main_v55 Cert.ReferenceIdeal.ReadP.val_main_v48 Cert.ReferenceIdeal.ReadP.val_main_v45 Cert.ReferenceIdeal.ReadP.val_main_v47 Cert.ReferenceIdeal.ReadP.val_main_v46 Cert.ReferenceIdeal.ReadP.val_main_v4
  rw [laplacianK_apply, laplacianR_apply]
  refine congrArg (Ideal.ofBits .f32 0x00000000#32 + ·) (Finset.sum_congr rfl fun e _ => ?_)
  refine if_congr Iff.rfl ?_ rfl
  exact congrArg₂ (· * ·) ((Prefix.lastStep_apply _ b _).trans (steps_apply _ _ b 5 _).symm) rfl

end Cert.KernelIdeal.Graph

end
-- ==== Proof.RefValue.lean ====
/-
  The reference's mean array read index by index: at batch `b` and channel `h`, the sum over the nodes, from zero, of
  the gated hidden state at the last timestep, divided by the word of 50000; each operand of the gated state is one
  element of an argument array, and the Laplacian feature's array stays closed.
-/
import proofs.«172272_j9809705304183_2_alg».proof.Proof.RefReadPatched
import proofs.«172272_j9809705304183_2_alg».proof.Proof.PoolSpec
import Idealize.ShloMosaic.Lib.ValueIdx

noncomputable section

open scoped BigOperators

namespace Cert.ReferenceIdeal.RefValue

open Cert.ReferenceIdeal Cert.ReferenceIdeal.Gen Cert.ReferenceIdeal.ReadP Idealize.ShloMosaic Idealize.ShloMosaic.ValueIdx

/-! ## The operands of the gated state, each read at `(b, t, n, h)`

Every operand of the pointwise cell is a broadcast along the axes it does not have: the node feature and the Laplacian
feature along the hidden axis, a weight row or a bias along batch, time and node. Read at `(b, t, n, h)` each is one
element of an argument array (or of the Laplacian feature's array, which stays closed). -/

section Operands
variable (x0 : (⟨S8x6x50000x1, .f32⟩ : BufTy).Contents (Elt Ideal))
  (x1 : (⟨S2x1600000, .i32⟩ : BufTy).Contents (Elt Ideal))
  (xw : (⟨S2x16, .f32⟩ : BufTy).Contents (Elt Ideal))
  (xb : (⟨S16, .f32⟩ : BufTy).Contents (Elt Ideal))
  (b : Fin 8) (t : Fin 6) (n : Fin 50000) (h : Fin 16)

/-- The node feature with its unit axis dropped, at `(b, t, n)`: the argument's element `(b, t, n, 0)`. -/
theorem feat_at : val_main_v4 (F := Ideal) x0 (ix3 b t n) = x0 (ix4 b t n 0) := by
  rw [val_main_v4_apply]
  refine congrArg x0 ?_
  funext a; refine Fin.ext ?_
  have hb := b.isLt; have ht := t.isLt; have hn := n.isLt
  match a with
  | ⟨0, _⟩ => show ((b.val * 6 + t.val) * 50000 + n.val) / 300000 = b.val; omega
  | ⟨1, _⟩ => show ((b.val * 6 + t.val) * 50000 + n.val) / 50000 % 6 = t.val; omega
  | ⟨2, _⟩ => show ((b.val * 6 + t.val) * 50000 + n.val) / 1 % 50000 = n.val; omega
  | ⟨3, _⟩ => rfl

/-- The node feature broadcast along the hidden axis (update gate's branch). -/
theorem xfeat_z : val_main_v60 (F := Ideal) x0 (ix4 b t n h) = x0 (ix4 b t n 0) := by
  rw [val_main_v60_apply, val_main_v56_apply]
  have e : idx_main_v56 (idx_main_v60 (ix4 b t n h)) = ix3 b t n := by
    funext a; refine Fin.ext ?_
    match a with
    | ⟨0, _⟩ => rfl
    | ⟨1, _⟩ => rfl
    | ⟨2, _⟩ => rfl
  rw [e, feat_at]

/-- The node feature broadcast along the hidden axis (candidate state's branch). -/
theorem xfeat_h : val_main_v87 (F := Ideal) x0 (ix4 b t n h) = x0 (ix4 b t n 0) := by
  rw [val_main_v87_apply, val_main_v83_apply]
  have e : idx_main_v83 (idx_main_v87 (ix4 b t n h)) = ix3 b t n := by
    funext a; refine Fin.ext ?_
    match a with
    | ⟨0, _⟩ => rfl
    | ⟨1, _⟩ => rfl
    | ⟨2, _⟩ => rfl
  rw [e, feat_at]

/-- The Laplacian feature broadcast along the hidden axis (update gate's branch). -/
theorem lfeat_z : val_main_v67 (F := Ideal) x0 x1 (ix4 b t n h) = val_main_v55 (F := Ideal) x0 x1 (ix3 b t n) := by
  rw [val_main_v67_apply, val_main_v63_apply]
  refine congrArg (val_main_v55 (F := Ideal) x0 x1) ?_
  funext a; refine Fin.ext ?_
  match a with
  | ⟨0, _⟩ => rfl
  | ⟨1, _⟩ => rfl
  | ⟨2, _⟩ => rfl

/-- The Laplacian feature broadcast along the hidden axis (candidate state's branch). -/
theorem lfeat_h : val_main_v94 (F := Ideal) x0 x1 (ix4 b t n h) = val_main_v55 (F := Ideal) x0 x1 (ix3 b t n) := by
  rw [val_main_v94_apply, val_main_v90_apply]
  refine congrArg (val_main_v55 (F := Ideal) x0 x1) ?_
  funext a; refine Fin.ext ?_
  match a with
  | ⟨0, _⟩ => rfl
  | ⟨1, _⟩ => rfl
  | ⟨2, _⟩ => rfl

/-- Row 0 of the update gate's weights, broadcast along batch, time and node. -/
theorem wz0_at : val_main_v61 (F := Ideal) xw (ix4 b t n h) = xw (ix2 0 h) := by
  rw [val_main_v61_apply, val_main_v59_apply, val_main_v58_apply, val_main_v57_apply]
  refine congrArg xw ?_
  funext a; refine Fin.ext ?_
  match a with
  | ⟨0, _⟩ => rfl
  | ⟨1, _⟩ => show h.val % 16 = h.val; exact Nat.mod_eq_of_lt h.isLt

/-- Row 1 of the update gate's weights, broadcast along batch, time and node. -/
theorem wz1_at : val_main_v68 (F := Ideal) xw (ix4 b t n h) = xw (ix2 1 h) := by
  rw [val_main_v68_apply, val_main_v66_apply, val_main_v65_apply, val_main_v64_apply]
  refine congrArg xw ?_
  funext a; refine Fin.ext ?_
  match a with
  | ⟨0, _⟩ => rfl
  | ⟨1, _⟩ => show h.val % 16 = h.val; exact Nat.mod_eq_of_lt h.isLt

/-- Row 0 of the candidate state's weights, broadcast along batch, time and node. -/
theorem wh0_at : val_main_v88 (F := Ideal) xw (ix4 b t n h) = xw (ix2 0 h) := by
  rw [val_main_v88_apply, val_main_v86_apply, val_main_v85_apply, val_main_v84_apply]
  refine congrArg xw ?_
  funext a; refine Fin.ext ?_
  match a with
  | ⟨0, _⟩ => rfl
  | ⟨1, _⟩ => show h.val % 16 = h.val; exact Nat.mod_eq_of_lt h.isLt

/-- Row 1 of the candidate state's weights, broadcast along batch, time and node. -/
theorem wh1_at : val_main_v95 (F := Ideal) xw (ix4 b t n h) = xw (ix2 1 h) := by
  rw [val_main_v95_apply, val_main_v93_apply, val_main_v92_apply, val_main_v91_apply]
  refine congrArg xw ?_
  funext a; refine Fin.ext ?_
  match a with
  | ⟨0, _⟩ => rfl
  | ⟨1, _⟩ => show h.val % 16 = h.val; exact Nat.mod_eq_of_lt h.isLt

/-- The update gate's input bias, broadcast along batch, time and node. -/
theorem bxz_at : val_main_v72 (F := Ideal) xb (ix4 b t n h) = xb (ix1 h) := by
  rw [val_main_v72_apply, val_main_v71_apply]
  refine congrArg xb ?_
  funext a; refine Fin.ext ?_
  match a with
  | ⟨0, _⟩ => rfl

/-- The update gate's hidden bias, broadcast along batch, time and node. -/
theorem bhz_at : val_main_v75 (F := Ideal) xb (ix4 b t n h) = xb (ix1 h) := by
  rw [val_main_v75_apply, val_main_v74_apply]
  refine congrArg xb ?_
  funext a; refine Fin.ext ?_
  match a with
  | ⟨0, _⟩ => rfl

/-- The candidate state's input bias, broadcast along batch, time and node. -/
theorem bxh_at : val_main_v99 (F := Ideal) xb (ix4 b t n h) = xb (ix1 h) := by
  rw [val_main_v99_apply, val_main_v98_apply]
  refine congrArg xb ?_
  funext a; refine Fin.ext ?_
  match a with
  | ⟨0, _⟩ => rfl

/-- The candidate state's hidden bias, broadcast along batch, time and node. -/
theorem bhh_at : val_main_v102 (F := Ideal) xb (ix4 b t n h) = xb (ix1 h) := by
  rw [val_main_v102_apply, val_main_v101_apply]
  refine congrArg xb ?_
  funext a; refine Fin.ext ?_
  match a with
  | ⟨0, _⟩ => rfl

end Operands

/-! ## The gated state at `(b, t, n, h)` -/

section Cell
variable (x0 : (⟨S8x6x50000x1, .f32⟩ : BufTy).Contents (Elt Ideal))
  (x1 : (⟨S2x1600000, .i32⟩ : BufTy).Contents (Elt Ideal))
  (x2 : (⟨S2x16, .f32⟩ : BufTy).Contents (Elt Ideal))
  (x3 x4 : (⟨S16, .f32⟩ : BufTy).Contents (Elt Ideal))
  (x5 : (⟨S2x16, .f32⟩ : BufTy).Contents (Elt Ideal))
  (x6 x7 : (⟨S16, .f32⟩ : BufTy).Contents (Elt Ideal))

/-- THE POINTWISE CELL: the gated hidden state `(1 − σ(z)) · tanh(a)` at batch `b`, time `t`, node `n`, channel `h`,
    of the node's feature and its Laplacian feature, the biases added one after the other and the sigmoid spelt as
    the quotient `1 / (1 + e^(−z))`. -/
theorem cell_apply (b : Fin 8) (t : Fin 6) (n : Fin 50000) (h : Fin 16) :
    val_main_v107 (F := Ideal) x0 x1 x2 x3 x4 x5 x6 x7 (ix4 b t n h)
      = PoolSpec.gateR (x0 (ix4 b t n 0)) (val_main_v55 (F := Ideal) x0 x1 (ix3 b t n))
          (x2 (ix2 0 h)) (x2 (ix2 1 h)) (x3 (ix1 h)) (x4 (ix1 h))
          (x5 (ix2 0 h)) (x5 (ix2 1 h)) (x6 (ix1 h)) (x7 (ix1 h)) := by
  rw [val_main_v107_apply, val_main_v106_apply, val_main_v105_apply, val_main_cst_17_apply,
    val_main_v82_apply, val_main_v81_apply, val_main_cst_16_apply, val_main_v80_apply, val_main_v79_apply,
    val_main_cst_15_apply, val_main_v78_apply, val_main_v77_apply, val_main_v76_apply, val_main_v73_apply,
    val_main_v70_apply, val_main_v62_apply, val_main_v69_apply,
    val_main_v104_apply, val_main_v103_apply, val_main_v100_apply, val_main_v97_apply, val_main_v89_apply,
    val_main_v96_apply]
  rw [xfeat_z, wz0_at, lfeat_z, wz1_at, bxz_at, bhz_at, xfeat_h, wh0_at, lfeat_h, wh1_at, bxh_at, bhh_at]
  simp only [Ideal.ofBits_def, Ideal.addf_def, Ideal.subf_def, Ideal.mulf_def, Ideal.hostDivf_def,
    Ideal.hostNegf_def, Ideal.negf_def, Ideal.hostUnary_exp_def, Ideal.hostUnary_tanh_def]
  rfl

end Cell

/-! ## The mean over the nodes at the last timestep -/

section Mean
variable (x0 : (⟨S8x6x50000x1, .f32⟩ : BufTy).Contents (Elt Ideal))
  (x1 : (⟨S2x1600000, .i32⟩ : BufTy).Contents (Elt Ideal))
  (x2 : (⟨S2x16, .f32⟩ : BufTy).Contents (Elt Ideal))
  (x3 x4 : (⟨S16, .f32⟩ : BufTy).Contents (Elt Ideal))
  (x5 : (⟨S2x16, .f32⟩ : BufTy).Contents (Elt Ideal))
  (x6 x7 : (⟨S16, .f32⟩ : BufTy).Contents (Elt Ideal))

/-- THE MEAN ARRAY AT `(b, h)`: the sum over the 50000 nodes, from zero, of the gated state at the last timestep
    `t = 5`, divided by the word of `50000.0`. -/
theorem mean_apply (b : Fin 8) (h : Fin 16) :
    val_main_v112 (F := Ideal) x0 x1 x2 x3 x4 x5 x6 x7 (ix2 b h)
      = Ideal.div (Ideal.ofBits .f32 0x00000000#32 + ∑ n : Fin 50000,
          PoolSpec.gateR (x0 (ix4 b 5 n 0)) (val_main_v55 (F := Ideal) x0 x1 (ix3 b 5 n))
            (x2 (ix2 0 h)) (x2 (ix2 1 h)) (x3 (ix1 h)) (x4 (ix1 h))
            (x5 (ix2 0 h)) (x5 (ix2 1 h)) (x6 (ix1 h)) (x7 (ix1 h)))
        (Ideal.ofBits .f32 0x47435000#32) := by
  have e : idx_main_v111 (idx_main_v112 (ix2 b h)) = ix3 b (5 : Fin 6) h := by
    funext a; refine Fin.ext ?_
    have hb := b.isLt; have hh := h.isLt
    match a with
    | ⟨0, _⟩ => show (b.val * 16 + h.val) / 16 = b.val; omega
    | ⟨1, _⟩ => rfl
    | ⟨2, _⟩ => show (b.val * 16 + h.val) % 16 = h.val; omega
  rw [val_main_v112_apply, val_main_v111_apply, e, val_main_v110_apply, val_main_v109_apply, val_main_cst_19_apply,
    val_main_v108_apply, val_main_cst_18_apply]
  simp only [Ideal.ofBits_def, Ideal.hostDivf_def]
  refine congrArg (fun s => Ideal.div (Ideal.ofBits .f32 0x00000000#32 + s) (Ideal.ofBits .f32 0x47435000#32)) ?_
  refine Finset.sum_congr rfl fun n _ => ?_
  have en : idx_main_v108 (ix3 b (5 : Fin 6) h) n = ix4 b (5 : Fin 6) n h := by
    funext a; refine Fin.ext ?_
    match a with
    | ⟨0, _⟩ => rfl
    | ⟨1, _⟩ => rfl
    | ⟨2, _⟩ => rfl
    | ⟨3, _⟩ => rfl
  rw [en]
  exact cell_apply x0 x1 x2 x3 x4 x5 x6 x7 b 5 n h

end Mean

end Cert.ReferenceIdeal.RefValue

end
-- ==== Proof.MeanBridge.lean ====
/-
  The two programs' mean arrays agree, entry by entry, on the extended reals.

  At row `b` and channel `h` the kernel's mean is, over 50000, zero plus the two cores' blocks of the region's output
  array, each of which is zero plus the core's seven tile sums; the tile sums run over the columns of the zero-padded
  arrays with the columns from 50000 on weighted by zero. Re-associated (`PoolSpec.tiled_total`) this is zero plus the sum
  over the 50000 nodes of the kernel's gated state, which is the reference's gated state (`PoolSpec.gateK_eq_gateR`) of
  the same node feature and the same Laplacian feature (`Graph.laplacian_slice`): the reference's mean.
-/
import proofs.«172272_j9809705304183_2_alg».proof.Proof.KernelValue
import proofs.«172272_j9809705304183_2_alg».proof.Proof.KernelSum
import proofs.«172272_j9809705304183_2_alg».proof.Proof.GraphBridge
import proofs.«172272_j9809705304183_2_alg».proof.Proof.RefValue
import Idealize.ShloMosaic.PureOps.Ideal.Laws

set_option maxRecDepth 16384

noncomputable section

namespace Cert.KernelIdeal.Mean

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's mean array: the two cores' blocks added from zero, over 50000. -/
def meanK (o : (⟨S2x8x16, .f32⟩ : BufTy).Contents (Elt Ideal)) : (⟨S8x16, .f32⟩ : BufTy).Contents (Elt Ideal) :=
  Host.divf (F := Ideal) (φ := .f32) (Host.reduceAdd (F := Ideal) o (constant S_ .f32 0x00000000#32) reducesTo_S2x8x16_S8x16_d0 h_S_)
    (broadcastInDim S8x16 ![] bcast_S_S8x16 (constant S_ .f32 0x47435000#32))

theorem meanK_apply (o : (⟨S2x8x16, .f32⟩ : BufTy).Contents (Elt Ideal)) (b : Fin 8) (h : Fin 16) :
    meanK o (ix2 b h)
      = Ideal.div (Ideal.ofBits .f32 0x00000000#32 + ∑ q : Fin 2, o (ix3 q b h)) (Ideal.ofBits .f32 0x47435000#32) := by
  unfold meanK
  show Ideal.div (Ideal.hostReduceAdd reducesTo_S2x8x16_S8x16_d0 o (Ideal.ofBits .f32 0x00000000#32) (ix2 b h))
    (Ideal.ofBits .f32 0x47435000#32) = _
  rw [Ideal.hostReduceAdd_single reducesTo_S2x8x16_S8x16_d0 (by decide : S2x8x16.Reduces [0] S8x16) o _ (ix2 b h)]
  refine congrArg (fun s => Ideal.div (Ideal.ofBits .f32 0x00000000#32 + s) (Ideal.ofBits .f32 0x47435000#32))
    (Finset.sum_congr rfl fun q _ => congrArg o (funext fun a => by
      match a with
      | ⟨0, _⟩ => rfl
      | ⟨1, _⟩ => rfl
      | ⟨2, _⟩ => rfl))

/-- The kernel's gated state at a node column is the reference's gated state of the node. -/
theorem cellAt_node (c : Dev nD) (b : Fin 8) (h : Fin 16) (n : ℕ) (hn : n < 50000) :
    Sum.cellAt m c b h n
      = PoolSpec.gateR ((m ((c : Thread nD τ).loc main_arg0)) (ix4 b (5 : Fin 6) (⟨n, hn⟩ : Fin 50000) (0 : Fin 1)))
          (Cert.ReferenceIdeal.ReadP.val_main_v55 (F := Ideal) (m ((c : Thread nD τ).loc main_arg0)) (m ((c : Thread nD τ).loc main_arg1)) (ix3 b (5 : Fin 6) (⟨n, hn⟩ : Fin 50000)))
          ((m ((c : Thread nD τ).loc main_arg2)) (ix2 0 h)) ((m ((c : Thread nD τ).loc main_arg2)) (ix2 1 h)) ((m ((c : Thread nD τ).loc main_arg3)) (ix1 h)) ((m ((c : Thread nD τ).loc main_arg4)) (ix1 h))
          ((m ((c : Thread nD τ).loc main_arg5)) (ix2 0 h)) ((m ((c : Thread nD τ).loc main_arg5)) (ix2 1 h)) ((m ((c : Thread nD τ).loc main_arg6)) (ix1 h)) ((m ((c : Thread nD τ).loc main_arg7)) (ix1 h)) := by
  have e1 : (V m c main_v57 : (⟨S8x57344, .f32⟩ : BufTy).Contents (Elt Ideal)) (ix2 b (⟨n, by omega⟩ : Fin 57344))
      = (m ((c : Thread nD τ).loc main_arg0)) (ix4 b (5 : Fin 6) (⟨n, hn⟩ : Fin 50000) (0 : Fin 1)) := by
    rw [Prefix.v57_eq m c]
    refine (Prefix.padded_apply_inside _ _ b n hn).trans ?_
    rw [Prefix.v38_eq m c]
    exact Prefix.lastStep_apply _ b ⟨n, hn⟩
  have e2 : (V m c main_v58 : (⟨S8x57344, .f32⟩ : BufTy).Contents (Elt Ideal)) (ix2 b (⟨n, by omega⟩ : Fin 57344))
      = Cert.ReferenceIdeal.ReadP.val_main_v55 (F := Ideal) (m ((c : Thread nD τ).loc main_arg0)) (m ((c : Thread nD τ).loc main_arg1)) (ix3 b (5 : Fin 6) (⟨n, hn⟩ : Fin 50000)) := by
    rw [Prefix.v58_eq m c]
    exact (Prefix.padded_apply_inside _ _ b n hn).trans (Graph.laplacian_slice m c b ⟨n, hn⟩)
  unfold Sum.cellAt
  rw [dif_pos (show n < 57344 by omega), PoolSpec.gateK_eq_gateR, e1, e2]

/-- The kernel's numerator: zero plus the two cores' blocks is zero plus the sum over the 50000 node columns of the
    kernel's gated state. -/
theorem numerator_eq (c : Dev nD) (b : Fin 8) (h : Fin 16) :
    Ideal.ofBits .f32 0x00000000#32 + ∑ q : Fin 2, Out.outArr m c (ix3 q b h)
      = Ideal.ofBits .f32 0x00000000#32 + ∑ n ∈ Finset.range 50000, Sum.cellAt m c b h n := by
  have hq : ∀ q : Fin 2, Out.outArr m c (ix3 q b h) = 0 + ∑ k ∈ Finset.range 7, Sum.tileSum m c b h (7 * q.val + k) :=
    fun q => Sum.acc_last m c b h q.val q.isLt _
  have e : ∑ q : Fin 2, Out.outArr m c (ix3 q b h)
      = ∑ q ∈ Finset.range 2, ∑ k ∈ Finset.range 7, Sum.tileSum m c b h (7 * q + k) := by
    rw [Finset.sum_range]
    exact Finset.sum_congr rfl fun q _ => by rw [hq q, zero_add]
  rw [e, PoolSpec.ofBits_zero]
  unfold Sum.tileSum
  exact PoolSpec.tiled_total (Sum.cellAt m c b h)

/-- THE MEANS AGREE. -/
theorem mean_eq (c : Dev nD) (b : Fin 8) (h : Fin 16) :
    meanK (Out.outArr m c) (ix2 b h)
      = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 b h) := by
  rw [meanK_apply, Cert.ReferenceIdeal.RefValue.mean_apply]
  refine congrArg (fun s => Ideal.div s (Ideal.ofBits .f32 0x47435000#32)) ?_
  rw [numerator_eq, Finset.sum_range]
  exact congrArg (Ideal.ofBits .f32 0x00000000#32 + ·) (Finset.sum_congr rfl fun n _ => cellAt_node m c b h n.val n.isLt)

/-- The host lines after the region, over the kernel's mean array. -/
theorem tail_meanK (o : (⟨S2x8x16, .f32⟩ : BufTy).Contents (Elt Ideal)) (wl : (⟨S1x16, .f32⟩ : BufTy).Contents (Elt Ideal))
    (bl : (⟨S1, .f32⟩ : BufTy).Contents (Elt Ideal)) :
    Out.tail (F := Ideal) o wl bl
      = addf (F := Ideal) (φ := .f32) (Host.dotGeneral (F := Ideal) (φ₂ := .f32) dot_S8x16_S16x1_S8x1_1_0_0_1_n_n none
          (maximumf (meanK o) (broadcastInDim S8x16 ![] bcast_S_S8x16 (constant S_ .f32 0x00000000#32)))
          (transpose S16x1 [1, 0] wl transposes_S1x16_S16x1_1_0))
        (broadcastInDim S8x1 ![0, 1] bcast_S1x1_S8x1_0_1 (broadcastInDim S1x1 ![1] bcast_S1_S1x1_1 bl)) := rfl

/-- THE RESULTS AGREE: clamped at zero, contracted against the output weights and shifted by the output bias, equal means
    give equal results — the kernel's result is the reference's last stage of the same arguments. -/
theorem result_eq (c : Dev nD) :
    Out.tail (Out.outArr m c) (m ((c : Thread nD τ).loc main_arg8)) (m ((c : Thread nD τ).loc main_arg9))
      = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hm : meanK (Out.outArr m c)
      = Cert.ReferenceIdeal.ReadP.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    funext fun i => by
      obtain ⟨p, q, rfl⟩ : ∃ (p : Fin 8) (q : Fin 16), i = ix2 p q := ⟨i 0, i 1, eq_ix2 i⟩
      exact mean_eq m c p q
  rw [tail_meanK, hm]
  unfold Cert.ReferenceIdeal.ReadP.val_main_v118 Cert.ReferenceIdeal.ReadP.val_main_v115 Cert.ReferenceIdeal.ReadP.val_main_v113 Cert.ReferenceIdeal.ReadP.val_main_v117 Cert.ReferenceIdeal.ReadP.val_main_v116
    Cert.ReferenceIdeal.ReadP.val_main_v114 Cert.ReferenceIdeal.ReadP.val_main_call1_v0 Cert.ReferenceIdeal.ReadP.val_main_call1_cst
  rfl

end Cert.KernelIdeal.Mean

end
-- ==== Proof.lean ====
/-
  The certificate of the pooling kernel against its reference: a ChebConv-GRU cell with zero hidden state, mean-pooled
  over 50000 nodes at the last timestep, clamped at zero and contracted to one output.

  Both programs form, from the edge list, the edge sources, targets and weights by the same host operations, and from
  them the Laplacian feature of the node features by a gather, a scaling and a scatter-add along the node axis — the
  reference for all six timesteps, the kernel for the last one only, which is the last timestep of the reference's
  (`Graph.laplacian_slice`). Per node and hidden channel both form the gated state `(1 - σ(z)) · tanh(a)`; the reference
  adds its biases one after the other and spells the sigmoid as a quotient, the kernel adds the biases' sum and applies
  the logistic function: one number on the extended reals (`PoolSpec.gateK_eq_gateR`). The reference adds the 50000
  nodes' states from zero; the kernel adds them tile by tile over the zero-padded arrays, a column past the nodes
  weighted by zero, seven tiles to a core, and adds the two cores' sums from zero: the same total, sums on the extended
  reals re-associating freely and a zero factor giving zero (`PoolSpec.tiled_total`). Both divide by 50000, clamp at zero,
  contract against the output weights and add the output bias. No step needs the inputs finite.

  The kernel's frames are the generated frame runs; its value is read off the frame run of its idealization
  (`Out.run`); the reference's frame and value are its run read back (`ValueP.run`); the ideal pass rewrote nothing.
-/
import proofs.«172272_j9809705304183_2_alg».proof.Defs
import proofs.«172272_j9809705304183_2_alg».proof.Proof.Gen.Kernel
import proofs.«172272_j9809705304183_2_alg».proof.Proof.Gen.Kernel.Frame
import proofs.«172272_j9809705304183_2_alg».proof.Proof.Gen.KernelIdeal
import proofs.«172272_j9809705304183_2_alg».proof.Proof.Gen.KernelIdeal.Frame
import proofs.«172272_j9809705304183_2_alg».proof.Proof.Gen.ReferenceIdeal
import proofs.«172272_j9809705304183_2_alg».proof.Proof.Gen.Pre_finite_inputs
import proofs.«172272_j9809705304183_2_alg».proof.Proof.MeanBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At `Ideal` the kernel's result ends at the host tail of the region's output array and the reference's at its last
    stage of arguments that agree: one array (`Mean.result_eq`). -/
theorem algebraic : Cert.algebraic_KernelIdeal_ReferenceIdeal := by
  intro m ρ m' ρ' _ hagree
  refine ⟨fun c => Cert.KernelIdeal.Out.tail (Cert.KernelIdeal.Out.outArr m c)
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Out.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v118_eq, a0, a1, a2, a3, a4, a5, a6, a7, a8, a9]
  exact (Cert.KernelIdeal.Mean.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
